-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S16384x256 : Shape := ⟨2, ![16384, 256]⟩
abbrev S2048x256 : Shape := ⟨2, ![2048, 256]⟩
abbrev S2048 : Shape := ⟨1, ![2048]⟩
abbrev S6144x2048 : Shape := ⟨2, ![6144, 2048]⟩
abbrev S6144 : Shape := ⟨1, ![6144]⟩
abbrev S2048x2048 : Shape := ⟨2, ![2048, 2048]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S16384x256 : S_.BroadcastsInDim S16384x256 (![] : Fin 0 → Fin S16384x256.rank)
  reducesTo_S16384x256_S_d0_1 : S16384x256.ReducesTo [0, 1] S_
  bcast_S_S2048x256 : S_.BroadcastsInDim S2048x256 (![] : Fin 0 → Fin S2048x256.rank)
  reducesTo_S2048x256_S_d0_1 : S2048x256.ReducesTo [0, 1] S_
  bcast_S_S2048 : S_.BroadcastsInDim S2048 (![] : Fin 0 → Fin S2048.rank)
  reducesTo_S2048_S_d0 : S2048.ReducesTo [0] S_
  bcast_S_S6144x2048 : S_.BroadcastsInDim S6144x2048 (![] : Fin 0 → Fin S6144x2048.rank)
  reducesTo_S6144x2048_S_d0_1 : S6144x2048.ReducesTo [0, 1] S_
  bcast_S_S6144 : S_.BroadcastsInDim S6144 (![] : Fin 0 → Fin S6144.rank)
  reducesTo_S6144_S_d0 : S6144.ReducesTo [0] S_
  bcast_S_S2048x2048 : S_.BroadcastsInDim S2048x2048 (![] : Fin 0 → Fin S2048x2048.rank)
  reducesTo_S2048x2048_S_d0_1 : S2048x2048.ReducesTo [0, 1] S_

variable [Facts]

def fn_part2 {F : FTy → Type} [FloatOps F] (main_arg7 : FVec F S2048 .f32) (main_arg8 : FVec F S2048 .f32) (main_arg9 : FVec F S2048 .f32) (main_v33 : IVec S_ 1) : IVec S_ 1 :=
  let main_v34 : FVec F S2048 .f32 := Host.absf main_arg7
  let main_cst_12 : FVec F S_ .f32 := constant S_ .f32 0x7F800000#32
  let main_v35 : FVec F S2048 .f32 := broadcastInDim S2048 ![] bcast_S_S2048 main_cst_12
  let main_v36 : IVec S2048 1 := cmpf .olt main_v34 main_v35
  let main_c_13 : IVec S_ 1 := constantI S_ 1 1#1
  let main_v37 : IVec S_ 1 := (fun x v => Host.reduce IntOp.andi x v reducesTo_S2048_S_d0 h_S_) main_v36 main_c_13
  let main_v38 : IVec S_ 1 := andi main_v33 main_v37
  let main_v39 : FVec F S2048 .f32 := Host.absf main_arg8
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  let main_v44 : FVec F S2048 .f32 := Host.absf main_arg9
  let main_cst_16 : FVec F S_ .f32 := constant S_ .f32 0x7F800000#32
  let main_v45 : FVec F S2048 .f32 := broadcastInDim S2048 ![] bcast_S_S2048 main_cst_16
  let main_v46 : IVec S2048 1 := cmpf .olt main_v44 main_v45
  let main_c_17 : IVec S_ 1 := constantI S_ 1 1#1
  let main_v47 : IVec S_ 1 := (fun x v => Host.reduce IntOp.andi x v reducesTo_S2048_S_d0 h_S_) main_v46 main_c_17
  let main_v48 : IVec S_ 1 := andi main_v43 main_v47
  main_v48

def fn_part1 {F : FTy → Type} [FloatOps F] (main_arg4 : FVec F S6144x2048 .f32) (main_arg5 : FVec F S6144 .f32) (main_arg6 : FVec F S2048x2048 .f32) (main_arg7 : FVec F S2048 .f32) (main_arg8 : FVec F S2048 .f32) (main_arg9 : FVec F S2048 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S6144x2048 .f32 := Host.absf main_arg4
  let main_cst_6 : FVec F S_ .f32 := constant S_ .f32 0x7F800000#32
  let main_v20 : FVec F S6144x2048 .f32 := broadcastInDim S6144x2048 ![] bcast_S_S6144x2048 main_cst_6
  let main_v21 : IVec S6144x2048 1 := cmpf .olt main_v19 main_v20
  let main_c_7 : IVec S_ 1 := constantI S_ 1 1#1
  let main_v22 : IVec S_ 1 := (fun x v => Host.reduce IntOp.andi x v reducesTo_S6144x2048_S_d0_1 h_S_) main_v21 main_c_7
  let main_v23 : IVec S_ 1 := andi main_v18 main_v22
  let main_v24 : FVec F S6144 .f32 := Host.absf main_arg5
  let main_cst_8 : FVec F S_ .f32 := constant S_ .f32 0x7F800000#32
  let main_v25 : FVec F S6144 .f32 := broadcastInDim S6144 ![] bcast_S_S6144 main_cst_8
  let main_v26 : IVec S6144 1 := cmpf .olt main_v24 main_v25
  let main_c_9 : IVec S_ 1 := constantI S_ 1 1#1
  let main_v27 : IVec S_ 1 := (fun x v => Host.reduce IntOp.andi x v reducesTo_S6144_S_d0 h_S_) main_v26 main_c_9
  let main_v28 : IVec S_ 1 := andi main_v23 main_v27
  let main_v29 : FVec F S2048x2048 .f32 := Host.absf main_arg6
  let main_cst_10 : FVec F S_ .f32 := constant S_ .f32 0x7F800000#32
  let main_v30 : FVec F S2048x2048 .f32 := broadcastInDim S2048x2048 ![] bcast_S_S2048x2048 main_cst_10
  let main_v31 : IVec S2048x2048 1 := cmpf .olt main_v29 main_v30
  let main_c_11 : IVec S_ 1 := constantI S_ 1 1#1
  let main_v32 : IVec S_ 1 := (fun x v => Host.reduce IntOp.andi x v reducesTo_S2048x2048_S_d0_1 h_S_) main_v31 main_c_11
  let main_v33 : IVec S_ 1 := andi main_v28 main_v32
  fn_part2 (F := F) main_arg7 main_arg8 main_arg9 main_v33

def fn {F : FTy → Type} [FloatOps F] (main_arg0 : FVec F S16384x2048 .f32) (main_arg1 : FVec F S16384x256 .f32) (main_arg2 : FVec F S2048x256 .f32) (main_arg3 : FVec F S2048 .f32) (main_arg4 : FVec F S6144x2048 .f32) (main_arg5 : FVec F S6144 .f32) (main_arg6 : FVec F S2048x2048 .f32) (main_arg7 : FVec F S2048 .f32) (main_arg8 : FVec F S2048 .f32) (main_arg9 : FVec F S2048 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S16384x256 .f32 := Host.absf main_arg1
  let main_cst_0 : FVec F S_ .f32 := constant S_ .f32 0x7F800000#32
  let main_v5 : FVec F S16384x256 .f32 := broadcastInDim S16384x256 ![] bcast_S_S16384x256 main_cst_0
  let main_v6 : IVec S16384x256 1 := cmpf .olt main_v4 main_v5
  let main_c_1 : IVec S_ 1 := constantI S_ 1 1#1
  let main_v7 : IVec S_ 1 := (fun x v => Host.reduce IntOp.andi x v reducesTo_S16384x256_S_d0_1 h_S_) main_v6 main_c_1
  let main_v8 : IVec S_ 1 := andi main_v3 main_v7
  let main_v9 : FVec F S2048x256 .f32 := Host.absf main_arg2
  let main_cst_2 : FVec F S_ .f32 := constant S_ .f32 0x7F800000#32
  let main_v10 : FVec F S2048x256 .f32 := broadcastInDim S2048x256 ![] bcast_S_S2048x256 main_cst_2
  let main_v11 : IVec S2048x256 1 := cmpf .olt main_v9 main_v10
  let main_c_3 : IVec S_ 1 := constantI S_ 1 1#1
  let main_v12 : IVec S_ 1 := (fun x v => Host.reduce IntOp.andi x v reducesTo_S2048x256_S_d0_1 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg4 main_arg5 main_arg6 main_arg7 main_arg8 main_arg9 main_v13 main_v16
-- ==== Kernel.lean ====
abbrev S16384x2048 : Shape := ⟨2, ![16384, 2048]⟩
abbrev S16384x256 : Shape := ⟨2, ![16384, 256]⟩
abbrev S2048x256 : Shape := ⟨2, ![2048, 256]⟩
abbrev S2048 : Shape := ⟨1, ![2048]⟩
abbrev S6144x2048 : Shape := ⟨2, ![6144, 2048]⟩
abbrev S6144 : Shape := ⟨1, ![6144]⟩
abbrev S2048x2048 : Shape := ⟨2, ![2048, 2048]⟩
abbrev S256x2048 : Shape := ⟨2, ![256, 2048]⟩
abbrev S1x2048 : Shape := ⟨2, ![1, 2048]⟩
abbrev S16384x4096 : Shape := ⟨2, ![16384, 4096]⟩
abbrev S128x2048 : Shape := ⟨2, ![128, 2048]⟩
abbrev S128x256 : Shape := ⟨2, ![128, 256]⟩
abbrev S128x4096 : Shape := ⟨2, ![128, 4096]⟩
abbrev S128 : Shape := ⟨1, ![128]⟩
abbrev S128x1 : Shape := ⟨2, ![128, 1]⟩

abbrev nBuf : Space → Nat
  | .hbm => 24
  | .vmem => 14
  | .smem => 0
  | _ => 0

abbrev bufTy : (tb : Table) → Fin (tcTables nBuf tb) → BufTy
  | .hbm, ⟨0, _⟩ => ⟨S16384x2048, .f32⟩
  | .hbm, ⟨1, _⟩ => ⟨S16384x256, .f32⟩
  | .hbm, ⟨2, _⟩ => ⟨S2048x256, .f32⟩
  | .hbm, ⟨3, _⟩ => ⟨S2048, .f32⟩
  | .hbm, ⟨4, _⟩ => ⟨S6144x2048, .f32⟩
  | .hbm, ⟨5, _⟩ => ⟨S6144, .f32⟩
  | .hbm, ⟨6, _⟩ => ⟨S2048x2048, .f32⟩
  | .hbm, ⟨7, _⟩ => ⟨S2048, .f32⟩
  | .hbm, ⟨8, _⟩ => ⟨S2048, .f32⟩
  | .hbm, ⟨9, _⟩ => ⟨S2048, .f32⟩
  | .hbm, ⟨10, _⟩ => ⟨S2048x2048, .f32⟩
  | .hbm, ⟨11, _⟩ => ⟨S2048, .f32⟩
  | .hbm, ⟨12, _⟩ => ⟨S256x2048, .f32⟩
  | .hbm, ⟨13, _⟩ => ⟨S256x2048, .bf16⟩
  | .hbm, ⟨14, _⟩ => ⟨S2048x2048, .f32⟩
  | .hbm, ⟨15, _⟩ => ⟨S2048x2048, .bf16⟩
  | .hbm, ⟨16, _⟩ => ⟨S2048x2048, .f32⟩
  | .hbm, ⟨17, _⟩ => ⟨S2048x2048, .bf16⟩
  | .hbm, ⟨18, _⟩ => ⟨S1x2048, .f32⟩
  | .hbm, ⟨19, _⟩ => ⟨S1x2048, .f32⟩
  | .hbm, ⟨20, _⟩ => ⟨S1x2048, .f32⟩
  | .hbm, ⟨21, _⟩ => ⟨S1x2048, .f32⟩
  | .hbm, ⟨22, _⟩ => ⟨S1x2048, .f32⟩
  | .hbm, ⟨23, _⟩ => ⟨S16384x4096, .f32⟩
  | .local _ .vmem, ⟨0, _⟩ => ⟨S128x2048, .f32⟩
  | .local _ .vmem, ⟨1, _⟩ => ⟨S128x2048, .f32⟩
  | .local _ .vmem, ⟨2, _⟩ => ⟨S128x256, .f32⟩
  | .local _ .vmem, ⟨3, _⟩ => ⟨S128x256, .f32⟩
  | .local _ .vmem, ⟨4, _⟩ => ⟨S256x2048, .bf16⟩
  | .local _ .vmem, ⟨5, _⟩ => ⟨S1x2048, .f32⟩
  | .local _ .vmem, ⟨6, _⟩ => ⟨S2048x2048, .bf16⟩
  | .local _ .vmem, ⟨7, _⟩ => ⟨S1x2048, .f32⟩
  | .local _ .vmem, ⟨8, _⟩ => ⟨S2048x2048, .bf16⟩
  | .local _ .vmem, ⟨9, _⟩ => ⟨S1x2048, .f32⟩
  | .local _ .vmem, ⟨10, _⟩ => ⟨S1x2048, .f32⟩
  | .local _ .vmem, ⟨11, _⟩ => ⟨S1x2048, .f32⟩
  | .local _ .vmem, ⟨12, _⟩ => ⟨S128x4096, .f32⟩
  | .local _ .vmem, ⟨13, _⟩ => ⟨S128x4096, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S128x4096 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  slices_S6144x2048_S2048x2048_4096_0 : S6144x2048.Slices ![4096, 0] S2048x2048
  slices_S6144_S2048_4096 : S6144.Slices ![4096] S2048
  transposes_S2048x256_S256x2048_1_0 : S2048x256.Transposes [1, 0] S256x2048
  bitsLt_bf16_f32 : FTy.bits .bf16 < FTy.bits .f32
  transposes_S2048x2048_S2048x2048_1_0 : S2048x2048.Transposes [1, 0] S2048x2048
  shapeCasts_S2048_S1x2048 : S2048.ShapeCasts S1x2048
  inb_S128x256_S128x256_0_0 : ∀ a, (![0, 0] : Fin 2 → Nat) a + S128x256.size a ≤ S128x256.size a
  h_S128x256 : 0 < S128x256.numel
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S128x2048 : S1x2048.Broadcasts S128x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S128x2048_S128x2048_0_0 : ∀ a, (![0, 0] : Fin 2 → Nat) a + S128x2048.size a ≤ S128x2048.size a
  h_S128x2048 : 0 < S128x2048.numel
  reduces_S128x2048_S128 : S128x2048.Reduces [1] S128
  shapeCasts_S128_S128x1 : S128.ShapeCasts S128x1
  broadcasts_S128x1_S128x2048 : S128x1.Broadcasts S128x2048
  inb_S128x4096_S128x2048_0_0 : ∀ a, (![0, 0] : Fin 2 → Nat) a + S128x2048.size a ≤ S128x4096.size a
  inb_S128x4096_S128x2048_0_2048 : ∀ a, (![0, 2048] : Fin 2 → Nat) a + S128x2048.size a ≤ S128x4096.size a
  dot_S128x256_S256x2048_S128x2048_1_0_0_1_n_n_wf : DotDims.WF S128x256 S256x2048 S128x2048 [1] [0] [0] [1] [] []
  dot_S128x2048_S2048x2048_S128x2048_1_0_0_1_n_n_wf : DotDims.WF S128x2048 S2048x2048 S128x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x2048.size a ≤ S16384x2048.size a
  hwx0_0 : ∀ i : grid0.Coords, EltTy.bits .f32 = 32 ∨ (Rect.block (s := S16384x2048) S128x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S16384x256.size a
  hwx0_1 : ∀ i : grid0.Coords, EltTy.bits .f32 = 32 ∨ (Rect.block (s := S16384x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S256x2048.size a
  hwx0_2 : ∀ i : grid0.Coords, EltTy.bits .bf16 = 32 ∨ (Rect.block (s := S256x2048) S256x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2048x2048.size a ≤ S2048x2048.size a
  hwx0_4 : ∀ i : grid0.Coords, EltTy.bits .bf16 = 32 ∨ (Rect.block (s := S2048x2048) S2048x2048.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x2048.size a ≤ S1x2048.size a
  hwx0_5 : ∀ i : grid0.Coords, EltTy.bits .f32 = 32 ∨ (Rect.block (s := S1x2048) S1x2048.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2048x2048.size a ≤ S2048x2048.size a
  hwx0_6 : ∀ i : grid0.Coords, EltTy.bits .bf16 = 32 ∨ (Rect.block (s := S2048x2048) S2048x2048.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x2048.size a ≤ S1x2048.size a
  hwx0_7 : ∀ i : grid0.Coords, EltTy.bits .f32 = 32 ∨ (Rect.block (s := S1x2048) S1x2048.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x2048.size a ≤ S1x2048.size a
  hwx0_8 : ∀ i : grid0.Coords, EltTy.bits .f32 = 32 ∨ (Rect.block (s := S1x2048) S1x2048.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x2048.size a ≤ S1x2048.size a
  hwx0_9 : ∀ i : grid0.Coords, EltTy.bits .f32 = 32 ∨ (Rect.block (s := S1x2048) S1x2048.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S128x4096.size a ≤ S16384x4096.size a
  hwx0_10 : ∀ i : grid0.Coords, EltTy.bits .f32 = 32 ∨ (Rect.block (s := S16384x4096) S128x4096.size (cc0_transform_10 i) (hinb0_10 i)).WholeWords (EltTy.packing .f32)

variable [Facts₀]

def dot_S128x256_S256x2048_S128x2048_1_0_0_1_n_n : DotDims S128x256 S256x2048 S128x2048 where
  lhsContracting := [1]
  rhsContracting := [0]
  lhsNonContracting := [0]
  rhsNonContracting := [1]
  lhsBatch := []
  rhsBatch := []
  wf := dot_S128x256_S256x2048_S128x2048_1_0_0_1_n_n_wf
def dot_S128x2048_S2048x2048_S128x2048_1_0_0_1_n_n : DotDims S128x2048 S2048x2048 S128x2048 where
  lhsContracting := [1]
  rhsContracting := [0]
  lhsNonContracting := [0]
  rhsNonContracting := [1]
  lhsBatch := []
  rhsBatch := []
  wf := dot_S128x2048_S2048x2048_S128x2048_1_0_0_1_n_n_wf

abbrev win0_0 : Pipeline.Window sig grid0 :=
  Pipeline.Window.ofSpec (Memref.whole main_arg0) S128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S256x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S2048x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S2048x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10) S1x2048.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v11) S1x2048.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v12) S1x2048.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v13) S128x4096.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S16384x256 : Shape := ⟨2, ![16384, 256]⟩
abbrev S2048x256 : Shape := ⟨2, ![2048, 256]⟩
abbrev S2048 : Shape := ⟨1, ![2048]⟩
abbrev S6144x2048 : Shape := ⟨2, ![6144, 2048]⟩
abbrev S6144 : Shape := ⟨1, ![6144]⟩
abbrev S2048x2048 : Shape := ⟨2, ![2048, 2048]⟩
abbrev S256x2048 : Shape := ⟨2, ![256, 2048]⟩
abbrev S1x2048 : Shape := ⟨2, ![1, 2048]⟩
abbrev S16384x16x128 : Shape := ⟨3, ![16384, 16, 128]⟩
abbrev S_ : Shape := ⟨0, ![]⟩
abbrev S16384x16 : Shape := ⟨2, ![16384, 16]⟩
abbrev S16384x16x1 : Shape := ⟨3, ![16384, 16, 1]⟩
abbrev S16384 : Shape := ⟨1, ![16384]⟩
abbrev S16384x1 : Shape := ⟨2, ![16384, 1]⟩
abbrev S16384x4096 : Shape := ⟨2, ![16384, 4096]⟩

abbrev nBuf : Space → Nat
  | .hbm => 97
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x256, .f32⟩
  | .hbm, ⟨2, _⟩ => ⟨S2048x256, .f32⟩
  | .hbm, ⟨3, _⟩ => ⟨S2048, .f32⟩
  | .hbm, ⟨4, _⟩ => ⟨S6144x2048, .f32⟩
  | .hbm, ⟨5, _⟩ => ⟨S6144, .f32⟩
  | .hbm, ⟨6, _⟩ => ⟨S2048x2048, .f32⟩
  | .hbm, ⟨7, _⟩ => ⟨S2048, .f32⟩
  | .hbm, ⟨8, _⟩ => ⟨S2048, .f32⟩
  | .hbm, ⟨9, _⟩ => ⟨S2048, .f32⟩
  | .hbm, ⟨10, _⟩ => ⟨S256x2048, .f32⟩
  | .hbm, ⟨11, _⟩ => ⟨S16384x2048, .f32⟩
  | .hbm, ⟨12, _⟩ => ⟨S1x2048, .f32⟩
  | .hbm, ⟨13, _⟩ => ⟨S16384x2048, .f32⟩
  | .hbm, ⟨14, _⟩ => ⟨S16384x2048, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048, .f32⟩
  | .hbm, ⟨19, _⟩ => ⟨S2048, .f32⟩
  | .hbm, ⟨20, _⟩ => ⟨S2048, .f32⟩
  | .hbm, ⟨21, _⟩ => ⟨S2048x2048, .f32⟩
  | .hbm, ⟨22, _⟩ => ⟨S16384x2048, .f32⟩
  | .hbm, ⟨23, _⟩ => ⟨S1x2048, .f32⟩
  | .hbm, ⟨24, _⟩ => ⟨S16384x2048, .f32⟩
  | .hbm, ⟨25, _⟩ => ⟨S16384x2048, .f32⟩
  | .hbm, ⟨26, _⟩ => ⟨S2048x2048, .f32⟩
  | .hbm, ⟨27, _⟩ => ⟨S16384x2048, .f32⟩
  | .hbm, ⟨28, _⟩ => ⟨S1x2048, .f32⟩
  | .hbm, ⟨29, _⟩ => ⟨S16384x2048, .f32⟩
  | .hbm, ⟨30, _⟩ => ⟨S16384x2048, .f32⟩
  | .hbm, ⟨31, _⟩ => ⟨S2048x2048, .f32⟩
  | .hbm, ⟨32, _⟩ => ⟨S16384x2048, .f32⟩
  | .hbm, ⟨33, _⟩ => ⟨S1x2048, .f32⟩
  | .hbm, ⟨34, _⟩ => ⟨S16384x2048, .f32⟩
  | .hbm, ⟨35, _⟩ => ⟨S16384x2048, .f32⟩
  | .hbm, ⟨36, _⟩ => ⟨S16384x16x128, .f32⟩
  | .hbm, ⟨37, _⟩ => ⟨S16384x16x128, .f32⟩
  | .hbm, ⟨38, _⟩ => ⟨S16384x16x128, .f32⟩
  | .hbm, ⟨39, _⟩ => ⟨S16384x16x128, .f32⟩
  | .hbm, ⟨40, _⟩ => ⟨S_, .f32⟩
  | .hbm, ⟨41, _⟩ => ⟨S16384x16, .f32⟩
  | .hbm, ⟨42, _⟩ => ⟨S16384x16x1, .f32⟩
  | .hbm, ⟨43, _⟩ => ⟨S_, .f32⟩
  | .hbm, ⟨44, _⟩ => ⟨S16384x16x1, .f32⟩
  | .hbm, ⟨45, _⟩ => ⟨S16384x16x1, .f32⟩
  | .hbm, ⟨46, _⟩ => ⟨S_, .f32⟩
  | .hbm, ⟨47, _⟩ => ⟨S16384x16, .f32⟩
  | .hbm, ⟨48, _⟩ => ⟨S_, .f32⟩
  | .hbm, ⟨49, _⟩ => ⟨S16384x16, .f32⟩
  | .hbm, ⟨50, _⟩ => ⟨S16384x16, .f32⟩
  | .hbm, ⟨51, _⟩ => ⟨S16384x16x1, .f32⟩
  | .hbm, ⟨52, _⟩ => ⟨S16384x16x1, .f32⟩
  | .hbm, ⟨53, _⟩ => ⟨S16384x16x1, .f32⟩
  | .hbm, ⟨54, _⟩ => ⟨S_, .f32⟩
  | .hbm, ⟨55, _⟩ => ⟨S16384x16, .f32⟩
  | .hbm, ⟨56, _⟩ => ⟨S16384x16x1, .f32⟩
  | .hbm, ⟨57, _⟩ => ⟨S16384x16x1, .f32⟩
  | .hbm, ⟨58, _⟩ => ⟨S16384x16x128, .f32⟩
  | .hbm, ⟨59, _⟩ => ⟨S16384x16x128, .f32⟩
  | .hbm, ⟨60, _⟩ => ⟨S16384x2048, .f32⟩
  | .hbm, ⟨61, _⟩ => ⟨S2048x2048, .f32⟩
  | .hbm, ⟨62, _⟩ => ⟨S16384x2048, .f32⟩
  | .hbm, ⟨63, _⟩ => ⟨S1x2048, .f32⟩
  | .hbm, ⟨64, _⟩ => ⟨S16384x2048, .f32⟩
  | .hbm, ⟨65, _⟩ => ⟨S16384x2048, .f32⟩
  | .hbm, ⟨66, _⟩ => ⟨S16384x2048, .f32⟩
  | .hbm, ⟨67, _⟩ => ⟨S_, .f32⟩
  | .hbm, ⟨68, _⟩ => ⟨S16384, .f32⟩
  | .hbm, ⟨69, _⟩ => ⟨S16384x1, .f32⟩
  | .hbm, ⟨70, _⟩ => ⟨S_, .f32⟩
  | .hbm, ⟨71, _⟩ => ⟨S16384x1, .f32⟩
  | .hbm, ⟨72, _⟩ => ⟨S16384x1, .f32⟩
  | .hbm, ⟨73, _⟩ => ⟨S16384x2048, .f32⟩
  | .hbm, ⟨74, _⟩ => ⟨S16384x2048, .f32⟩
  | .hbm, ⟨75, _⟩ => ⟨S16384x2048, .f32⟩
  | .hbm, ⟨76, _⟩ => ⟨S_, .f32⟩
  | .hbm, ⟨77, _⟩ => ⟨S16384, .f32⟩
  | .hbm, ⟨78, _⟩ => ⟨S16384x1, .f32⟩
  | .hbm, ⟨79, _⟩ => ⟨S_, .f32⟩
  | .hbm, ⟨80, _⟩ => ⟨S16384x1, .f32⟩
  | .hbm, ⟨81, _⟩ => ⟨S16384x1, .f32⟩
  | .hbm, ⟨82, _⟩ => ⟨S16384x2048, .f32⟩
  | .hbm, ⟨83, _⟩ => ⟨S16384x2048, .f32⟩
  | .hbm, ⟨84, _⟩ => ⟨S_, .f32⟩
  | .hbm, ⟨85, _⟩ => ⟨S16384x1, .f32⟩
  | .hbm, ⟨86, _⟩ => ⟨S16384x1, .f32⟩
  | .hbm, ⟨87, _⟩ => ⟨S16384x1, .f32⟩
  | .hbm, ⟨88, _⟩ => ⟨S16384x2048, .f32⟩
  | .hbm, ⟨89, _⟩ => ⟨S16384x2048, .f32⟩
  | .hbm, ⟨90, _⟩ => ⟨S1x2048, .f32⟩
  | .hbm, ⟨91, _⟩ => ⟨S16384x2048, .f32⟩
  | .hbm, ⟨92, _⟩ => ⟨S16384x2048, .f32⟩
  | .hbm, ⟨93, _⟩ => ⟨S1x2048, .f32⟩
  | .hbm, ⟨94, _⟩ => ⟨S16384x2048, .f32⟩
  | .hbm, ⟨95, _⟩ => ⟨S16384x2048, .f32⟩
  | .hbm, ⟨96, _⟩ => ⟨S16384x4096, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst : Ref sig .tc := ⟨.hbm, 40, rfl⟩
abbrev main_v30 : Ref sig .tc := ⟨.hbm, 41, rfl⟩
abbrev main_v31 : Ref sig .tc := ⟨.hbm, 42, rfl⟩
abbrev main_cst_0 : Ref sig .tc := ⟨.hbm, 43, rfl⟩
abbrev main_v32 : Ref sig .tc := ⟨.hbm, 44, rfl⟩
abbrev main_v33 : Ref sig .tc := ⟨.hbm, 45, rfl⟩
abbrev main_cst_1 : Ref sig .tc := ⟨.hbm, 46, rfl⟩
abbrev main_v34 : Ref sig .tc := ⟨.hbm, 47, rfl⟩
abbrev main_cst_2 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_3 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_4 : Ref sig .tc := ⟨.hbm, 67, rfl⟩
abbrev main_v52 : Ref sig .tc := ⟨.hbm, 68, rfl⟩
abbrev main_v53 : Ref sig .tc := ⟨.hbm, 69, rfl⟩
abbrev main_cst_5 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_6 : Ref sig .tc := ⟨.hbm, 76, rfl⟩
abbrev main_v59 : Ref sig .tc := ⟨.hbm, 77, rfl⟩
abbrev main_v60 : Ref sig .tc := ⟨.hbm, 78, rfl⟩
abbrev main_cst_7 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_cst_8 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩

abbrev nD : Nat := 1
abbrev τ : Topo := Topo.v7x

variable {F : FTy → Type} [FloatOps F]

class Facts₀ : Prop where
  transposes_S2048x256_S256x2048_1_0 : S2048x256.Transposes [1, 0] S256x2048
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  slices_S6144x2048_S2048x2048_0_0 : S6144x2048.Slices ![0, 0] S2048x2048
  slices_S6144x2048_S2048x2048_2048_0 : S6144x2048.Slices ![2048, 0] S2048x2048
  slices_S6144x2048_S2048x2048_4096_0 : S6144x2048.Slices ![4096, 0] S2048x2048
  slices_S6144_S2048_0 : S6144.Slices ![0] S2048
  slices_S6144_S2048_2048 : S6144.Slices ![2048] S2048
  slices_S6144_S2048_4096 : S6144.Slices ![4096] S2048
  transposes_S2048x2048_S2048x2048_1_0 : S2048x2048.Transposes [1, 0] S2048x2048
  shapeCasts_S16384x2048_S16384x16x128 : S16384x2048.ShapeCasts S16384x16x128
  reducesTo_S16384x16x128_S16384x16_d2 : S16384x16x128.ReducesTo [2] S16384x16
  h_S_ : 0 < S_.numel
  bcast_S16384x16_S16384x16x1_0_1 : S16384x16.BroadcastsInDim S16384x16x1 (![0, 1] : Fin 2 → Fin S16384x16x1.rank)
  bcast_S_S16384x16x1 : S_.BroadcastsInDim S16384x16x1 (![] : Fin 0 → Fin S16384x16x1.rank)
  reducesTo_S16384x16x1_S16384x16_d2 : S16384x16x1.ReducesTo [2] S16384x16
  bcast_S_S16384x16 : S_.BroadcastsInDim S16384x16 (![] : Fin 0 → Fin S16384x16.rank)
  bcast_S16384x16x1_S16384x16x128_0_1_2 : S16384x16x1.BroadcastsInDim S16384x16x128 (![0, 1, 2] : Fin 3 → Fin S16384x16x128.rank)
  shapeCasts_S16384x16x128_S16384x2048 : S16384x16x128.ShapeCasts S16384x2048
  reducesTo_S16384x2048_S16384_d1 : S16384x2048.ReducesTo [1] S16384
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x2048_0_1 : S16384x1.BroadcastsInDim S16384x2048 (![0, 1] : Fin 2 → Fin S16384x2048.rank)
  concatenates_S16384x2048_S16384x2048_S16384x4096_d1 : Shape.Concatenates [S16384x2048, S16384x2048] S16384x4096 1
  dot_S16384x256_S256x2048_S16384x2048_1_0_0_1_n_n_wf : DotDims.WF S16384x256 S256x2048 S16384x2048 [1] [0] [0] [1] [] []
  dot_S16384x2048_S2048x2048_S16384x2048_1_0_0_1_n_n_wf : DotDims.WF S16384x2048 S2048x2048 S16384x2048 [1] [0] [0] [1] [] []

variable [Facts₀]

def dot_S16384x256_S256x2048_S16384x2048_1_0_0_1_n_n : DotDims S16384x256 S256x2048 S16384x2048 where
  lhsContracting := [1]
  rhsContracting := [0]
  lhsNonContracting := [0]
  rhsNonContracting := [1]
  lhsBatch := []
  rhsBatch := []
  wf := dot_S16384x256_S256x2048_S16384x2048_1_0_0_1_n_n_wf
def dot_S16384x2048_S2048x2048_S16384x2048_1_0_0_1_n_n : DotDims S16384x2048 S2048x2048 S16384x2048 where
  lhsContracting := [1]
  rhsContracting := [0]
  lhsNonContracting := [0]
  rhsNonContracting := [1]
  lhsBatch := []
  rhsBatch := []
  wf := dot_S16384x2048_S2048x2048_S16384x2048_1_0_0_1_n_n_wf

class Facts : Prop extends Facts₀ where

variable [Facts]
-- ==== Proof.Spec.lean ====
/-
  The function both programs compute, one batch row at a time.

  A single metadata token is the only key and value of a 16-head attention whose queries come from the image
  features.  With one key the softmax weight is 1, so the attention output is the value projection itself and
  the query and key projections drop out.  What remains, for a batch row with image features `img` and metadata `meta`:

    kv  = meta · W_metaᵀ + b_meta                       (256 → 2048)
    v   = kv · W_vᵀ + b_v       (W_v, b_v: rows 4096 … 6143 of the packed in-projection)
    a   = v · W_outᵀ + b_out
    x   = a + img
    y   = (x − mean x) · rsqrt (var x + ε) · γ + β      (mean and variance over the 2048 features, each a sum divided by 2048)

  and the result row is `img` followed by `y` (4096 entries).  Everything is read over the extended reals, with
  the two float literals (2048 and ε) kept as the values of their binary words.
-/
import Idealize.ShloMosaic.PureOps.Ideal
import Idealize.ShloMosaic.Lib.ValueIdx

noncomputable section

open scoped BigOperators

namespace Cert.Fusion

open Idealize.ShloMosaic

/-- Output `e` of a dense layer for one input row `x`: `∑ k, x k · w e k + b e` (the weight matrix is stored
    output-major, as the layer's `W` with `x · Wᵀ`). -/
def dense {K N : ℕ} (x : Fin K → EReal) (w : Fin N → Fin K → EReal) (b : Fin N → EReal) (e : Fin N) : EReal :=
  (∑ k : Fin K, x k * w e k) + b e

/-- The value projection's weights: rows 4096 … 6143 of the packed [6144, 2048] in-projection. -/
def valueRows (win : Fin 6144 → Fin 2048 → EReal) (k : Fin 2048) : Fin 2048 → EReal :=
  win ⟨4096 + k.val, by have := k.isLt; omega⟩

/-- The value projection's bias: entries 4096 … 6143 of the packed bias. -/
def valueBias (bin : Fin 6144 → EReal) (k : Fin 2048) : EReal :=
  bin ⟨4096 + k.val, by have := k.isLt; omega⟩

/-- The number of features, 2048, as the value of its binary32 word. -/
def width : EReal := Ideal.ofBits .f32 0x45000000#32

/-- The variance offset ε (the binary32 word nearest 10⁻⁵), as the value of that word. -/
def eps : EReal := Ideal.ofBits .f32 0x3727C5AC#32

/-- The mean of a row: its sum divided by 2048. -/
def mean (x : Fin 2048 → EReal) : EReal := Ideal.div (∑ e : Fin 2048, x e) width

/-- A row's entry minus the row's mean. -/
def centred (x : Fin 2048 → EReal) (e : Fin 2048) : EReal := x e - mean x

/-- The (biased) variance of a row: the mean of the squared deviations. -/
def variance (x : Fin 2048 → EReal) : EReal := Ideal.div (∑ e : Fin 2048, centred x e * centred x e) width

/-- Layer normalisation of a row with scale `g` and shift `b`. -/
def layerNorm (x g b : Fin 2048 → EReal) (e : Fin 2048) : EReal :=
  centred x e * Ideal.rsqrt (variance x + eps) * g e + b e

/-- The row that is normalised: three dense layers applied to the metadata row, plus the image row. -/
def resid (img : Fin 16384 → Fin 2048 → EReal) (md : Fin 16384 → Fin 256 → EReal)
    (wm : Fin 2048 → Fin 256 → EReal) (bm : Fin 2048 → EReal)
    (win : Fin 6144 → Fin 2048 → EReal) (bin : Fin 6144 → EReal)
    (wo : Fin 2048 → Fin 2048 → EReal) (bo : Fin 2048 → EReal)
    (r : Fin 16384) (e : Fin 2048) : EReal :=
  dense (dense (dense (md r) wm bm) (valueRows win) (valueBias bin)) wo bo e + img r e

/-- The result at row `r`, column `c`: the image row in columns 0 … 2047, the normalised row in 2048 … 4095. -/
def fused (img : Fin 16384 → Fin 2048 → EReal) (md : Fin 16384 → Fin 256 → EReal)
    (wm : Fin 2048 → Fin 256 → EReal) (bm : Fin 2048 → EReal)
    (win : Fin 6144 → Fin 2048 → EReal) (bin : Fin 6144 → EReal)
    (wo : Fin 2048 → Fin 2048 → EReal) (bo : Fin 2048 → EReal)
    (g b : Fin 2048 → EReal) (r : Fin 16384) (c : Fin 4096) : EReal :=
  if h : c.val < 2048 then img r ⟨c.val, h⟩
  else layerNorm (resid img md wm bm win bin wo bo r) g b ⟨c.val - 2048, by have := c.isLt; omega⟩

end Cert.Fusion

end
-- ==== Proof.SpecArray.lean ====
/-
  The common result as ONE array: entry (r, c) of the [16384, 4096] result, as a function of the ten argument arrays
  given by their multi-indices (the specification `Cert.Fusion.fused` with each array read at its coordinates).
-/
import proofs.«121445_j49297634623646_1_alg».proof.Proof.Spec

noncomputable section

namespace Cert.Fusion

open Idealize.ShloMosaic Idealize.ShloMosaic.ValueIdx

/-- The result array of the ten argument arrays: image features, metadata features, metadata weights and bias, the
    packed in-projection weights and bias, the output weights and bias, the normalisation's scale and shift. -/
def fusedArr (x0 : (⟨2, ![16384, 2048]⟩ : Shape).Idx → EReal) (x1 : (⟨2, ![16384, 256]⟩ : Shape).Idx → EReal)
    (x2 : (⟨2, ![2048, 256]⟩ : Shape).Idx → EReal) (x3 : (⟨1, ![2048]⟩ : Shape).Idx → EReal)
    (x4 : (⟨2, ![6144, 2048]⟩ : Shape).Idx → EReal) (x5 : (⟨1, ![6144]⟩ : Shape).Idx → EReal)
    (x6 : (⟨2, ![2048, 2048]⟩ : Shape).Idx → EReal) (x7 x8 x9 : (⟨1, ![2048]⟩ : Shape).Idx → EReal) :
    (⟨2, ![16384, 4096]⟩ : Shape).Idx → EReal :=
  fun i => fused (fun r c => x0 (ix2 r c)) (fun r k => x1 (ix2 r k)) (fun j k => x2 (ix2 j k)) (fun j => x3 (ix1 j))
    (fun a j => x4 (ix2 a j)) (fun a => x5 (ix1 a)) (fun e k => x6 (ix2 e k)) (fun e => x7 (ix1 e))
    (fun e => x8 (ix1 e)) (fun e => x9 (ix1 e)) (i 0) (i 1)

theorem fusedArr_apply (x0 : (⟨2, ![16384, 2048]⟩ : Shape).Idx → EReal) (x1 : (⟨2, ![16384, 256]⟩ : Shape).Idx → EReal)
    (x2 : (⟨2, ![2048, 256]⟩ : Shape).Idx → EReal) (x3 : (⟨1, ![2048]⟩ : Shape).Idx → EReal)
    (x4 : (⟨2, ![6144, 2048]⟩ : Shape).Idx → EReal) (x5 : (⟨1, ![6144]⟩ : Shape).Idx → EReal)
    (x6 : (⟨2, ![2048, 2048]⟩ : Shape).Idx → EReal) (x7 x8 x9 : (⟨1, ![2048]⟩ : Shape).Idx → EReal)
    (r : Fin 16384) (c : Fin 4096) :
    fusedArr x0 x1 x2 x3 x4 x5 x6 x7 x8 x9 (ix2 r c)
      = fused (fun r c => x0 (ix2 r c)) (fun r k => x1 (ix2 r k)) (fun j k => x2 (ix2 j k)) (fun j => x3 (ix1 j))
          (fun a j => x4 (ix2 a j)) (fun a => x5 (ix1 a)) (fun e k => x6 (ix2 e k)) (fun e => x7 (ix1 e))
          (fun e => x8 (ix1 e)) (fun e => x9 (ix1 e)) r c := rfl

end Cert.Fusion

end
-- ==== Proof.LibDenseEntry.lean ====
/-
  The plain matrix product [M, K] × [K, N] → [M, N] over the extended reals, read at an entry, for any extents and
  any dimension record with the plain axis lists: entry (p, n) is ∑ k, l (p, k) · r (k, n) — for the matrix unit's
  product into an accumulator that is zero everywhere, and for the host's product.
-/
import Idealize.ShloMosaic.PureOps.Ideal.Laws
import Idealize.ShloMosaic.Lib.ValueIdx

noncomputable section

namespace Cert.LibDenseEntry

open Idealize.ShloMosaic Idealize.ShloMosaic.ValueIdx

variable {M K N : ℕ}

/-- [M, K] × [K, N] → [M, N], the left operand's second axis contracted with the right operand's first:
    entry (p, n) is ∑ k, l (p, k) · r (k, n). -/
theorem matmul_plain_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision)
    (l : FVec Ideal ⟨2, ![M, K]⟩ φ₁) (r : FVec Ideal ⟨2, ![K, N]⟩ φ₂) (p : Fin M) (n : Fin N) :
    FloatOps.matmul d prec l r (constant ⟨2, ![M, N]⟩ .f32 0x00000000#32) (ix2 p n)
      = ∑ k : Fin K, l (ix2 p k) * r (ix2 k n) := by
  obtain ⟨lc, rc, ln, rn, lb, rb, wf⟩ := d
  dsimp only at h1 h2 h3 h4 h5 h6
  subst h1 h2 h3 h4 h5 h6
  generalize hd : (⟨[1], [0], [0], [1], [], [], wf⟩ : DotDims ⟨2, ![M, K]⟩ ⟨2, ![K, N]⟩ ⟨2, ![M, N]⟩) = d
  have hr : d.contr.rank = 1 := by subst hd; rfl
  have hs : d.contr.size ⟨0, by rw [hr]; exact Nat.one_pos⟩ = K := by subst hd; rfl
  have hlc : d.lhsContracting = [1] := by subst hd; rfl
  have hrc : d.rhsContracting = [0] := by subst hd; rfl
  have lrow : ∀ (j : (⟨2, ![M, N]⟩ : Shape).Idx) (q : d.contr.Idx), (d.lhsIdx j q 0).val = (j 0).val := by
    intro j q; subst hd
    unfold DotDims.lhsIdx
    rw [dif_neg (show ¬(0 : Fin 2) ∈ ([] : List (Fin 2)) from List.not_mem_nil),
      dif_pos (show (0 : Fin 2) ∈ ([0] : List (Fin 2)) from List.mem_singleton.mpr rfl)]
    rfl
  have rcol : ∀ (j : (⟨2, ![M, N]⟩ : Shape).Idx) (q : d.contr.Idx), (d.rhsIdx j q 1).val = (j 1).val := by
    intro j q; subst hd
    unfold DotDims.rhsIdx
    rw [dif_neg (show ¬(1 : Fin 2) ∈ ([] : List (Fin 2)) from List.not_mem_nil),
      dif_pos (show (1 : Fin 2) ∈ ([1] : List (Fin 2)) from List.mem_singleton.mpr rfl)]
    rfl
  refine (Ideal.matmul_constant_zero_apply d prec l r (ix2 p n)).trans ?_
  rw [← Equiv.sum_comp (contrEquiv1 d K hr hs).symm]
  refine Finset.sum_congr rfl fun k _ => ?_
  have hk := contrEquiv1_symm_val d K hr hs k
  have el : d.lhsIdx (ix2 p n) ((contrEquiv1 d K hr hs).symm k) = ix2 p k :=
    funext fun a => Fin.ext (by
      match a with
      | ⟨0, _⟩ => exact lrow _ _
      | ⟨1, _⟩ => exact (d.lhsIdx_val_of_single hlc (ix2 p n) _).trans hk)
  have er : d.rhsIdx (ix2 p n) ((contrEquiv1 d K hr hs).symm k) = ix2 k n :=
    funext fun a => Fin.ext (by
      match a with
      | ⟨0, _⟩ => exact (d.rhsIdx_val_of_single hrc (ix2 p n) _).trans hk
      | ⟨1, _⟩ => exact rcol _ _)
  exact congrArg₂ (· * ·) (congrArg l el) (congrArg r er)

/-- The host's product of the same shape, read the same way. -/
theorem dotGeneral_plain_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (sched : HostSchedule)
    (l : FVec Ideal ⟨2, ![M, K]⟩ φ₁) (r : FVec Ideal ⟨2, ![K, N]⟩ φ₂) (p : Fin M) (n : Fin N) :
    FloatOps.dotGeneral d prec sched l r (ix2 p n)
      = ∑ k : Fin K, l (ix2 p k) * r (ix2 k n) := by
  obtain ⟨lc, rc, ln, rn, lb, rb, wf⟩ := d
  dsimp only at h1 h2 h3 h4 h5 h6
  subst h1 h2 h3 h4 h5 h6
  generalize hd : (⟨[1], [0], [0], [1], [], [], wf⟩ : DotDims ⟨2, ![M, K]⟩ ⟨2, ![K, N]⟩ ⟨2, ![M, N]⟩) = d
  have hr : d.contr.rank = 1 := by subst hd; rfl
  have hs : d.contr.size ⟨0, by rw [hr]; exact Nat.one_pos⟩ = K := by subst hd; rfl
  have hlc : d.lhsContracting = [1] := by subst hd; rfl
  have hrc : d.rhsContracting = [0] := by subst hd; rfl
  have lrow : ∀ (j : (⟨2, ![M, N]⟩ : Shape).Idx) (q : d.contr.Idx), (d.lhsIdx j q 0).val = (j 0).val := by
    intro j q; subst hd
    unfold DotDims.lhsIdx
    rw [dif_neg (show ¬(0 : Fin 2) ∈ ([] : List (Fin 2)) from List.not_mem_nil),
      dif_pos (show (0 : Fin 2) ∈ ([0] : List (Fin 2)) from List.mem_singleton.mpr rfl)]
    rfl
  have rcol : ∀ (j : (⟨2, ![M, N]⟩ : Shape).Idx) (q : d.contr.Idx), (d.rhsIdx j q 1).val = (j 1).val := by
    intro j q; subst hd
    unfold DotDims.rhsIdx
    rw [dif_neg (show ¬(1 : Fin 2) ∈ ([] : List (Fin 2)) from List.not_mem_nil),
      dif_pos (show (1 : Fin 2) ∈ ([1] : List (Fin 2)) from List.mem_singleton.mpr rfl)]
    rfl
  refine (Ideal.dotGeneral_apply d prec sched l r (ix2 p n)).trans ?_
  rw [← Equiv.sum_comp (contrEquiv1 d K hr hs).symm]
  refine Finset.sum_congr rfl fun k _ => ?_
  have hk := contrEquiv1_symm_val d K hr hs k
  have el : d.lhsIdx (ix2 p n) ((contrEquiv1 d K hr hs).symm k) = ix2 p k :=
    funext fun a => Fin.ext (by
      match a with
      | ⟨0, _⟩ => exact lrow _ _
      | ⟨1, _⟩ => exact (d.lhsIdx_val_of_single hlc (ix2 p n) _).trans hk)
  have er : d.rhsIdx (ix2 p n) ((contrEquiv1 d K hr hs).symm k) = ix2 k n :=
    funext fun a => Fin.ext (by
      match a with
      | ⟨0, _⟩ => exact (d.rhsIdx_val_of_single hrc (ix2 p n) _).trans hk
      | ⟨1, _⟩ => exact rcol _ _)
  exact congrArg₂ (· * ·) (congrArg l el) (congrArg r er)

end Cert.LibDenseEntry

end
-- ==== Proof.LibColumn.lean ====
/-
  Layout operations read at an index given by coordinates: the KEEP-DIMS COLUMN forms, beside the library's
  leading-unit-axis forms (Lib/ValueLayout.lean). A sum taken with its axis kept leaves a trailing unit axis: a vector
  `[a]` is cast to the column `[a, 1]`, a matrix `[a, b]` to `[a, b, 1]`, and such a column or trailing-unit block is then
  broadcast along the unit axis (`[a, 1]` to `[a, b]`, `[a, b, 1]` to `[a, b, c]`); a `[1, b, c]` block is broadcast down a
  new leading extent (`[1, b, c]` to `[a, b, c]`). Each lemma reads one such operation at an index written `ixN …`
  (Lib/ValueIdx.lean) as the operand at the index with the unit coordinate dropped or set to `0`; each is the parent
  lemma of Lib/Pipeline/Value.lean (`shapeCast_apply`, `broadcastTo_apply`) with the coordinates' arithmetic done.
-/
import Idealize.ShloMosaic.Lib.ValueLayout

namespace Cert.LibColumn

open Idealize.ShloMosaic Idealize.ShloMosaic.ValueIdx

variable {α : Type}

/-! ## A trailing unit axis added by a shape cast -/

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, b]` array cast to `[a, b, 1]` reads, at `(i, j, u)`, the operand at `(i, j)`, whatever the unit coordinate `u`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-! ## A unit axis broadcast -/

/-- A column `[a, 1]` broadcast to `[a, b]` reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- An `[a, b, 1]` block broadcast to `[a, b, c]` reads, at `(i, j, e)`, the block at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (e : Fin c) :
    broadcastTo ⟨3, ![a, b, c]⟩ v h (ix3 i j e) = v (ix3 i j (0 : Fin 1)) := by
  refine broadcastTo_apply v h (ix3 i j e) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A `[1, b, c]` block broadcast to `[a, b, c]` reads, at `(p, i, j)`, the block at `(0, i, j)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (i : Fin b) (j : Fin c) :
    broadcastTo ⟨3, ![a, b, c]⟩ v h (ix3 p i j) = v (ix3 (0 : Fin 1) i j) := by
  refine broadcastTo_apply v h (ix3 p i j) (ix3 (0 : Fin 1) i j) fun ax => ?_
  match ax with
  | ⟨0, _⟩ => rfl
  | ⟨1, _⟩ =>
    show i.val = if b = 1 then 0 else i.val
    split
    · have := i.isLt; omega
    · rfl
  | ⟨2, _⟩ =>
    show j.val = if c = 1 then 0 else j.val
    split
    · have := j.isLt; omega
    · rfl

end Cert.LibColumn
-- ==== Proof.KernelRow.lean ====
/-
  What the kernel's body computes for one block of 128 batch rows, read entry by entry over the extended reals.

  The body multiplies the metadata block by the (transposed) metadata weights and adds the bias row, twice more
  with the value and output weights, adds the image block, and normalises each row.  A product into a zero
  accumulator is, at an entry (p, q), the sum over k of row p of the left operand times column q of the right one;
  a change of float format is the identity; a bias stored as a [1, 2048] row and spread over the 128 rows is read at
  column q; a lane sum kept as a [128, 1] column and spread back over the columns is read at row p.  So each stage
  at (p, q) is the specification's `dense`, `centred` or `layerNorm` of row p.
-/
import proofs.«121445_j49297634623646_1_alg».proof.Proof.Gen.KernelIdeal.Skeleton
import proofs.«121445_j49297634623646_1_alg».proof.Proof.Spec
import proofs.«121445_j49297634623646_1_alg».proof.Proof.LibDenseEntry
import proofs.«121445_j49297634623646_1_alg».proof.Proof.LibColumn
import Idealize.ShloMosaic.Lib.ValueLayout
import Idealize.ShloMosaic.Lib.Pipeline.Value
import Idealize.ShloMosaic.PureOps.Ideal.Laws

noncomputable section

open scoped BigOperators

namespace Cert.FusionKernel

open Idealize.ShloMosaic Idealize.ShloMosaic.ValueIdx Cert.KernelIdeal Cert.KernelIdeal.Gen

/-! ## The stages of the body, as functions of blocks -/

/-- The metadata projection of a block: `md · Wᵀ + b` with the weights given transposed, [256, 2048]. -/
def blkKV (v0 : FVec Ideal S128x256 .f32) (v2 : FVec Ideal S256x2048 .bf16) (v5 : FVec Ideal S1x2048 .f32) : FVec Ideal S128x2048 .f32 :=
  addf (matmul dot_S128x256_S256x2048_S128x2048_1_0_0_1_n_n none (truncf .bf16 v0 bitsLt_bf16_f32)
      (shapeCast S256x2048 v2 shapeCasts_S256x2048_S256x2048) (constant S128x2048 .f32 0x00000000#32))
    (broadcastTo S128x2048 (shapeCast S1x2048 (shapeCast S1x2048 v5 shapeCasts_S1x2048_S1x2048) shapeCasts_S1x2048_S1x2048) broadcasts_S1x2048_S128x2048)

/-- A 2048 → 2048 dense layer on a block, the weights given transposed. -/
def blkDense (x : FVec Ideal S128x2048 .f32) (w : FVec Ideal S2048x2048 .bf16) (b : FVec Ideal S1x2048 .f32) : FVec Ideal S128x2048 .f32 :=
  addf (matmul dot_S128x2048_S2048x2048_S128x2048_1_0_0_1_n_n none (truncf .bf16 x bitsLt_bf16_f32)
      (shapeCast S2048x2048 w shapeCasts_S2048x2048_S2048x2048) (constant S128x2048 .f32 0x00000000#32))
    (broadcastTo S128x2048 (shapeCast S1x2048 (shapeCast S1x2048 b shapeCasts_S1x2048_S1x2048) shapeCasts_S1x2048_S1x2048) broadcasts_S1x2048_S128x2048)

/-- The block that is normalised: the three layers, plus the image block. -/
def blkResid (v0 : FVec Ideal S128x256 .f32) (v2 : FVec Ideal S256x2048 .bf16) (v5 : FVec Ideal S1x2048 .f32)
    (v11 : FVec Ideal S2048x2048 .bf16) (v14 : FVec Ideal S1x2048 .f32) (v20 : FVec Ideal S2048x2048 .bf16) (v23 : FVec Ideal S1x2048 .f32)
    (v28 : FVec Ideal S128x2048 .f32) : FVec Ideal S128x2048 .f32 :=
  addf (blkDense (blkDense (blkKV v0 v2 v5) v11 v14) v20 v23) v28

/-- Each row minus its mean (the row's lane sum divided by 2048). -/
def blkCentre (X : FVec Ideal S128x2048 .f32) : FVec Ideal S128x2048 .f32 :=
  subf X (broadcastTo S128x2048 (divf (shapeCast S128x1 (multiReduction .add [1] S128 X 0x00000000#32 reduces_S128x2048_S128 (.inl rfl) rfl) shapeCasts_S128_S128x1)
    (broadcast S128x1 (Scalar.ofBits .f32 0x45000000#32))) broadcasts_S128x1_S128x2048)

/-- The centred block `Y` (with its square `Z`) scaled by the reciprocal root of the row variance plus ε, then by γ, shifted by β. -/
def blkNorm (Y Z : FVec Ideal S128x2048 .f32) (v46 v51 : FVec Ideal S1x2048 .f32) : FVec Ideal S128x2048 .f32 :=
  addf (mulf (mulf Y (broadcastTo S128x2048 (rsqrt (addf (divf (shapeCast S128x1 (multiReduction .add [1] S128 Z 0x00000000#32 reduces_S128x2048_S128 (.inl rfl) rfl) shapeCasts_S128_S128x1)
      (broadcast S128x1 (Scalar.ofBits .f32 0x45000000#32))) (broadcast S128x1 (Scalar.ofBits .f32 0x3727C5AC#32)))) broadcasts_S128x1_S128x2048))
      (broadcastTo S128x2048 (shapeCast S1x2048 (shapeCast S1x2048 v46 shapeCasts_S1x2048_S1x2048) shapeCasts_S1x2048_S1x2048) broadcasts_S1x2048_S128x2048))
    (broadcastTo S128x2048 (shapeCast S1x2048 (shapeCast S1x2048 v51 shapeCasts_S1x2048_S1x2048) shapeCasts_S1x2048_S1x2048) broadcasts_S1x2048_S128x2048)

/-- The body's centred block is `blkCentre` of `blkResid`: the same operations in the same order. -/
theorem pay2_eq (v0 : FVec Ideal S128x256 .f32) (v2 : FVec Ideal S256x2048 .bf16) (v5 : FVec Ideal S1x2048 .f32)
    (v11 : FVec Ideal S2048x2048 .bf16) (v14 : FVec Ideal S1x2048 .f32) (v20 : FVec Ideal S2048x2048 .bf16) (v23 : FVec Ideal S1x2048 .f32)
    (v28 : FVec Ideal S128x2048 .f32) :
    k0_pay2 (F := Ideal) v0 v2 v5 v11 v14 v20 v23 v28 = blkCentre (blkResid v0 v2 v5 v11 v14 v20 v23 v28) := rfl

/-- Its square. -/
theorem pay3_eq (v0 : FVec Ideal S128x256 .f32) (v2 : FVec Ideal S256x2048 .bf16) (v5 : FVec Ideal S1x2048 .f32)
    (v11 : FVec Ideal S2048x2048 .bf16) (v14 : FVec Ideal S1x2048 .f32) (v20 : FVec Ideal S2048x2048 .bf16) (v23 : FVec Ideal S1x2048 .f32)
    (v28 : FVec Ideal S128x2048 .f32) :
    k0_pay3 (F := Ideal) v0 v2 v5 v11 v14 v20 v23 v28
      = mulf (blkCentre (blkResid v0 v2 v5 v11 v14 v20 v23 v28)) (blkCentre (blkResid v0 v2 v5 v11 v14 v20 v23 v28)) := rfl

/-- The body's normalised block is `blkNorm`. -/
theorem pay1_eq (Y Z : FVec Ideal S128x2048 .f32) (v46 v51 : FVec Ideal S1x2048 .f32) :
    k0_pay1 (F := Ideal) Y Z v46 v51 = blkNorm Y Z v46 v51 := rfl

/-! ## Each stage at an entry -/

/-- A bias kept as a [1, 2048] row (under two trivial casts) and spread over the rows, read at (p, q). -/
theorem biasRow_entry (b : FVec Ideal S1x2048 .f32) (p : Fin 128) (q : Fin 2048) :
    broadcastTo S128x2048 (shapeCast S1x2048 (shapeCast S1x2048 b shapeCasts_S1x2048_S1x2048) shapeCasts_S1x2048_S1x2048) broadcasts_S1x2048_S128x2048 (ix2 p q)
      = b (ix2 (0 : Fin 1) q) := by
  rw [shapeCast_self, shapeCast_self]
  exact broadcastTo_1b_ab_apply b broadcasts_S1x2048_S128x2048 p q

theorem blkKV_entry (v0 : FVec Ideal S128x256 .f32) (v2 : FVec Ideal S256x2048 .bf16) (v5 : FVec Ideal S1x2048 .f32) (p : Fin 128) (q : Fin 2048) :
    blkKV v0 v2 v5 (ix2 p q)
      = Cert.Fusion.dense (fun i : Fin 256 => v0 (ix2 p i)) (fun (j : Fin 2048) (i : Fin 256) => v2 (ix2 i j)) (fun j : Fin 2048 => v5 (ix2 (0 : Fin 1) j)) q := by
  unfold blkKV Cert.Fusion.dense
  rw [addf_apply, biasRow_entry, shapeCast_self]
  exact congrArg (· + v5 (ix2 (0 : Fin 1) q))
    (Cert.LibDenseEntry.matmul_plain_zero_apply dot_S128x256_S256x2048_S128x2048_1_0_0_1_n_n rfl rfl rfl rfl rfl rfl none
      (truncf .bf16 v0 bitsLt_bf16_f32) v2 p q)

theorem blkDense_entry (x : FVec Ideal S128x2048 .f32) (w : FVec Ideal S2048x2048 .bf16) (b : FVec Ideal S1x2048 .f32) (p : Fin 128) (q : Fin 2048) :
    blkDense x w b (ix2 p q)
      = Cert.Fusion.dense (fun k : Fin 2048 => x (ix2 p k)) (fun (e k : Fin 2048) => w (ix2 k e)) (fun e : Fin 2048 => b (ix2 (0 : Fin 1) e)) q := by
  unfold blkDense Cert.Fusion.dense
  rw [addf_apply, biasRow_entry, shapeCast_self]
  exact congrArg (· + b (ix2 (0 : Fin 1) q))
    (Cert.LibDenseEntry.matmul_plain_zero_apply dot_S128x2048_S2048x2048_S128x2048_1_0_0_1_n_n rfl rfl rfl rfl rfl rfl none
      (truncf .bf16 x bitsLt_bf16_f32) w p q)

/-- The lane sum of a block's row p, kept as a column and divided by 2048, is the row's mean. -/
theorem rowMean_entry (X : FVec Ideal S128x2048 .f32) (p : Fin 128) (u : Fin 1) :
    divf (shapeCast S128x1 (multiReduction .add [1] S128 X 0x00000000#32 reduces_S128x2048_S128 (.inl rfl) rfl) shapeCasts_S128_S128x1)
      (broadcast S128x1 (Scalar.ofBits .f32 0x45000000#32)) (ix2 p u)
      = Cert.Fusion.mean (fun e : Fin 2048 => X (ix2 p e)) := by
  rw [divf_apply, Cert.LibColumn.shapeCast_a_a1_apply, broadcast_apply]
  unfold Cert.Fusion.mean Cert.Fusion.width
  refine congrArg (fun s => Ideal.div s (Ideal.ofBits .f32 0x45000000#32)) ?_
  refine (Ideal.multiReduction_add_single X 0x00000000#32 reduces_S128x2048_S128 (.inl rfl) rfl (ix1 p)).trans ?_
  exact Finset.sum_congr rfl fun k _ => congrArg X (funext fun a => Fin.ext (by match a with | ⟨0, _⟩ => rfl | ⟨1, _⟩ => rfl))

theorem blkCentre_entry (X : FVec Ideal S128x2048 .f32) (p : Fin 128) (q : Fin 2048) :
    blkCentre X (ix2 p q) = Cert.Fusion.centred (fun e : Fin 2048 => X (ix2 p e)) q := by
  unfold blkCentre Cert.Fusion.centred
  rw [subf_apply, Cert.LibColumn.broadcastTo_a1_ab_apply, rowMean_entry]

theorem blkNorm_entry (X : FVec Ideal S128x2048 .f32) (v46 v51 : FVec Ideal S1x2048 .f32) (p : Fin 128) (q : Fin 2048) :
    blkNorm (blkCentre X) (mulf (blkCentre X) (blkCentre X)) v46 v51 (ix2 p q)
      = Cert.Fusion.layerNorm (fun e : Fin 2048 => X (ix2 p e)) (fun e : Fin 2048 => v46 (ix2 (0 : Fin 1) e)) (fun e : Fin 2048 => v51 (ix2 (0 : Fin 1) e)) q := by
  unfold blkNorm Cert.Fusion.layerNorm
  rw [addf_apply, mulf_apply, mulf_apply, biasRow_entry, biasRow_entry, Cert.LibColumn.broadcastTo_a1_ab_apply, blkCentre_entry]
  have hvar : addf (divf (shapeCast S128x1 (multiReduction .add [1] S128 (mulf (blkCentre X) (blkCentre X)) 0x00000000#32 reduces_S128x2048_S128 (.inl rfl) rfl) shapeCasts_S128_S128x1)
      (broadcast S128x1 (Scalar.ofBits .f32 0x45000000#32))) (broadcast S128x1 (Scalar.ofBits .f32 0x3727C5AC#32)) (ix2 p (0 : Fin 1))
      = Cert.Fusion.variance (fun e : Fin 2048 => X (ix2 p e)) + Cert.Fusion.eps := by
    rw [addf_apply, rowMean_entry, broadcast_apply]
    unfold Cert.Fusion.variance Cert.Fusion.mean Cert.Fusion.eps
    refine congrArg (fun s => Ideal.div s Cert.Fusion.width + Ideal.ofBits .f32 0x3727C5AC#32) ?_
    refine Finset.sum_congr rfl fun e _ => ?_
    show mulf (blkCentre X) (blkCentre X) (ix2 p e) = _
    rw [mulf_apply, blkCentre_entry]
  exact congrArg (fun s => Cert.Fusion.centred (fun e : Fin 2048 => X (ix2 p e)) q * s * v46 (ix2 (0 : Fin 1) q) + v51 (ix2 (0 : Fin 1) q))
    (congrArg Ideal.rsqrt hvar)

/-- The block that is normalised, at (p, e): three dense layers of the metadata row, plus the image entry. -/
theorem blkResid_entry (v0 : FVec Ideal S128x256 .f32) (v2 : FVec Ideal S256x2048 .bf16) (v5 : FVec Ideal S1x2048 .f32)
    (v11 : FVec Ideal S2048x2048 .bf16) (v14 : FVec Ideal S1x2048 .f32) (v20 : FVec Ideal S2048x2048 .bf16) (v23 : FVec Ideal S1x2048 .f32)
    (v28 : FVec Ideal S128x2048 .f32) (p : Fin 128) (e : Fin 2048) :
    blkResid v0 v2 v5 v11 v14 v20 v23 v28 (ix2 p e)
      = Cert.Fusion.dense
          (Cert.Fusion.dense
            (Cert.Fusion.dense (fun i : Fin 256 => v0 (ix2 p i)) (fun (j : Fin 2048) (i : Fin 256) => v2 (ix2 i j)) (fun j : Fin 2048 => v5 (ix2 (0 : Fin 1) j)))
            (fun (k j : Fin 2048) => v11 (ix2 j k)) (fun k : Fin 2048 => v14 (ix2 (0 : Fin 1) k)))
          (fun (e k : Fin 2048) => v20 (ix2 k e)) (fun e : Fin 2048 => v23 (ix2 (0 : Fin 1) e)) e
        + v28 (ix2 p e) := by
  unfold blkResid
  rw [addf_apply, blkDense_entry]
  refine congrArg (fun x : Fin 2048 → EReal => Cert.Fusion.dense x (fun (e k : Fin 2048) => v20 (ix2 k e)) (fun e : Fin 2048 => v23 (ix2 (0 : Fin 1) e)) e + v28 (ix2 p e)) ?_
  funext k
  rw [blkDense_entry]
  refine congrArg (fun x : Fin 2048 → EReal => Cert.Fusion.dense x (fun (k j : Fin 2048) => v11 (ix2 j k)) (fun k : Fin 2048 => v14 (ix2 (0 : Fin 1) k)) k) ?_
  funext j
  exact blkKV_entry v0 v2 v5 p j

end Cert.FusionKernel

end
-- ==== Proof.KernelBlock.lean ====
/-
  What the body leaves in its [128, 4096] output block, entry by entry.  The body stores the image block into columns
  0 … 2047 and the normalised block into columns 2048 … 4095; the two rectangles tile the block, so the block after the
  body is, at each index, the payload of the one store whose rectangle holds the index, read at the index inside it.
-/
import proofs.«121445_j49297634623646_1_alg».proof.Proof.Gen.KernelIdeal.Frame
import proofs.«121445_j49297634623646_1_alg».proof.Proof.KernelRow

noncomputable section

open scoped BigOperators

namespace Cert.FusionKernel

open Idealize.ShloMosaic Idealize.ShloMosaic.ValueIdx Cert.KernelIdeal Cert.KernelIdeal.Gen

/-- Every offset of the whole-buffer rectangle is zero. -/
theorem hz : (![0, 0] : Fin 2 → Nat) = fun _ => 0 := funext fun a => by fin_cases a <;> rfl

/-- What the body leaves in the output block, entry by entry, from the ten input blocks: columns 0 … 2047 are the image
    block; column 2048 + q of row p is the normalised row p at q. -/
def blockOut (x0 : FVec Ideal S128x2048 .f32) (x1 : FVec Ideal S128x256 .f32) (x2 : FVec Ideal S256x2048 .bf16) (x3 : FVec Ideal S1x2048 .f32)
    (x4 : FVec Ideal S2048x2048 .bf16) (x5 : FVec Ideal S1x2048 .f32) (x6 : FVec Ideal S2048x2048 .bf16) (x7 x8 x9 : FVec Ideal S1x2048 .f32) :
    S128x4096.Idx → EReal := fun y =>
  if h : (y 1).val < 2048 then x0 (ix2 (y 0) ⟨(y 1).val, h⟩)
  else Cert.Fusion.layerNorm
    (fun e : Fin 2048 => Cert.Fusion.dense
        (Cert.Fusion.dense
          (Cert.Fusion.dense (fun i : Fin 256 => x1 (ix2 (y 0) i)) (fun (j : Fin 2048) (i : Fin 256) => x2 (ix2 i j)) (fun j : Fin 2048 => x3 (ix2 (0 : Fin 1) j)))
          (fun (k j : Fin 2048) => x4 (ix2 j k)) (fun k : Fin 2048 => x5 (ix2 (0 : Fin 1) k)))
        (fun (e k : Fin 2048) => x6 (ix2 k e)) (fun e : Fin 2048 => x7 (ix2 (0 : Fin 1) e)) e
      + x0 (ix2 (y 0) e))
    (fun e : Fin 2048 => x8 (ix2 (0 : Fin 1) e)) (fun e : Fin 2048 => x9 (ix2 (0 : Fin 1) e))
    ⟨(y 1).val - 2048, by have := idx2_lt1 y; omega⟩

/-- The second store's payload at (p, q) is the block's entry at (p, 2048 + q). -/
theorem piece_norm (x0 : FVec Ideal S128x2048 .f32) (x1 : FVec Ideal S128x256 .f32) (x2 : FVec Ideal S256x2048 .bf16) (x3 : FVec Ideal S1x2048 .f32)
    (x4 : FVec Ideal S2048x2048 .bf16) (x5 : FVec Ideal S1x2048 .f32) (x6 : FVec Ideal S2048x2048 .bf16) (x7 x8 x9 : FVec Ideal S1x2048 .f32)
    (p : Fin 128) (q : Fin 2048) (y : S128x4096.Idx) (hy0 : (y 0).val = p.val) (hy1 : (y 1).val = 2048 + q.val) :
    blkNorm (blkCentre (blkResid x1 x2 x3 x4 x5 x6 x7 x0))
        (mulf (blkCentre (blkResid x1 x2 x3 x4 x5 x6 x7 x0)) (blkCentre (blkResid x1 x2 x3 x4 x5 x6 x7 x0))) x8 x9 (ix2 p q)
      = blockOut x0 x1 x2 x3 x4 x5 x6 x7 x8 x9 y := by
  rw [blkNorm_entry]
  unfold blockOut
  rw [dif_neg (by omega)]
  obtain rfl : p = y 0 := Fin.ext hy0.symm
  congr 1
  · funext e
    exact blkResid_entry x1 x2 x3 x4 x5 x6 x7 x0 (y 0) e
  · exact Fin.ext (by show q.val = (y 1).val - 2048; omega)

/-- The first store's payload, the image block, at (p, q) is the block's entry at (p, q). -/
theorem piece_img (x0 : FVec Ideal S128x2048 .f32) (x1 : FVec Ideal S128x256 .f32) (x2 : FVec Ideal S256x2048 .bf16) (x3 : FVec Ideal S1x2048 .f32)
    (x4 : FVec Ideal S2048x2048 .bf16) (x5 : FVec Ideal S1x2048 .f32) (x6 : FVec Ideal S2048x2048 .bf16) (x7 x8 x9 : FVec Ideal S1x2048 .f32)
    (p : Fin 128) (q : Fin 2048) (y : S128x4096.Idx) (hy0 : (y 0).val = p.val) (hy1 : (y 1).val = q.val) :
    x0 (ix2 p q) = blockOut x0 x1 x2 x3 x4 x5 x6 x7 x8 x9 y := by
  unfold blockOut
  rw [dif_pos (by have := q.isLt; omega)]
  exact congrArg x0 (funext fun a => Fin.ext (by match a with | ⟨0, _⟩ => exact hy0.symm | ⟨1, _⟩ => exact hy1.symm))

theorem out_entry (x0 : FVec Ideal S128x2048 .f32) (x1 : FVec Ideal S128x256 .f32) (x2 : FVec Ideal S256x2048 .bf16) (x3 : FVec Ideal S1x2048 .f32)
    (x4 : FVec Ideal S2048x2048 .bf16) (x5 : FVec Ideal S1x2048 .f32) (x6 : FVec Ideal S2048x2048 .bf16) (x7 x8 x9 : FVec Ideal S1x2048 .f32)
    (y : S128x4096.Idx) :
    out0_10 (F := Ideal) x0 x1 x2 x3 x4 x5 x6 x7 x8 x9 y = blockOut x0 x1 x2 x3 x4 x5 x6 x7 x8 x9 y := by
  unfold out0_10
  simp only [View.ld_unit_zero (S := S128x256) hz, View.ld_unit_zero (S := S256x2048) hz, View.ld_unit_zero (S := S1x2048) hz,
    View.ld_unit_zero (S := S2048x2048) hz, View.ld_unit_zero (S := S128x2048) hz]
  rw [pay1_eq, pay2_eq, pay3_eq]
  refine View.canon_apply_of_pieces (Val := Elt Ideal) (e := .f32) (blockOut x0 x1 x2 x3 x4 x5 x6 x7 x8 x9 : S128x4096.Idx → Elt Ideal .f32) _ ?_ y (cover0_10 _ _ y)
  intro pc hpc x
  rcases List.mem_cons.mp hpc with rfl | hpc
  · obtain ⟨p, q, rfl⟩ : ∃ (p : Fin 128) (q : Fin 2048), x = ix2 p q := ⟨x 0, x 1, eq_ix2 x⟩
    exact piece_norm x0 x1 x2 x3 x4 x5 x6 x7 x8 x9 p q _ (by simp only [Rect.emb_apply, Rect.off_unit, Rect.stride_unit, Nat.one_mul, Matrix.cons_val_zero, Matrix.cons_val_one, Matrix.head_cons]; try (first | rfl | exact Nat.zero_add _ | omega)) (by simp only [Rect.emb_apply, Rect.off_unit, Rect.stride_unit, Nat.one_mul, Matrix.cons_val_zero, Matrix.cons_val_one, Matrix.head_cons]; try (first | rfl | exact Nat.zero_add _ | omega))
  · have := List.mem_singleton.mp hpc
    subst this
    obtain ⟨p, q, rfl⟩ : ∃ (p : Fin 128) (q : Fin 2048), x = ix2 p q := ⟨x 0, x 1, eq_ix2 x⟩
    exact piece_img x0 x1 x2 x3 x4 x5 x6 x7 x8 x9 p q _ (by simp only [Rect.emb_apply, Rect.off_unit, Rect.stride_unit, Nat.one_mul, Matrix.cons_val_zero, Matrix.cons_val_one, Matrix.head_cons]; try (first | rfl | exact Nat.zero_add _ | omega)) (by simp only [Rect.emb_apply, Rect.off_unit, Rect.stride_unit, Nat.one_mul, Matrix.cons_val_zero, Matrix.cons_val_one, Matrix.head_cons]; try (first | rfl | exact Nat.zero_add _ | omega))

end Cert.FusionKernel

end
-- ==== Proof.KernelArgs.lean ====
/-
  The arrays the region finds when it starts, as functions of the arguments.  Before the call the host transposes the
  three weight matrices (taking rows 4096 … 6143 of the packed in-projection for the value weights), narrows them (the
  identity on the extended reals), and turns each of the five vectors into a [1, 2048] row.  So entry (i, j) of a
  prepared weight array is entry (j, i) of the argument, and entry (0, j) of a prepared row is entry j of the vector.
-/
import proofs.«121445_j49297634623646_1_alg».proof.Proof.Gen.KernelIdeal.Frame
import Idealize.ShloMosaic.Lib.ValueLayout
import Idealize.ShloMosaic.Lib.Pipeline.Value
import Idealize.ShloMosaic.Lib.StableHlo.Run

noncomputable section

namespace Cert.FusionKernel

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ)

/-- The metadata weights as the region finds them: the argument transposed. -/
theorem V_wmeta (c : Dev nD) : (V m c main_v3 : S256x2048.Idx → Elt Ideal .bf16)
    = (truncf (F := Ideal) .bf16 (transpose S256x2048 [1, 0] (m ((c : Thread nD τ).loc main_arg2) : S2048x256.Idx → Elt Ideal .f32) transposes_S2048x256_S256x2048_1_0) bitsLt_bf16_f32 : FVec Ideal S256x2048 .bf16) := by
  dsimp only [Gen.V, Gen.hostOps0]; after_results <;> rfl

theorem wmeta_entry (c : Dev nD) (i : Fin 256) (j : Fin 2048) :
    (V m c main_v3 : S256x2048.Idx → Elt Ideal .bf16) (ix2 i j) = (m ((c : Thread nD τ).loc main_arg2) : S2048x256.Idx → Elt Ideal .f32) (ix2 j i) := by
  rw [V_wmeta]
  exact transpose_ix2_apply (m ((c : Thread nD τ).loc main_arg2) : S2048x256.Idx → Elt Ideal .f32) transposes_S2048x256_S256x2048_1_0 i j

/-- The value weights: rows 4096 … 6143 of the packed in-projection, transposed. -/
theorem V_wv (c : Dev nD) : (V m c main_v5 : S2048x2048.Idx → Elt Ideal .bf16)
    = (truncf (F := Ideal) .bf16 (transpose S2048x2048 [1, 0] (extractStridedSlice S2048x2048 ![4096, 0] (m ((c : Thread nD τ).loc main_arg4) : S6144x2048.Idx → Elt Ideal .f32) slices_S6144x2048_S2048x2048_4096_0)
        transposes_S2048x2048_S2048x2048_1_0) bitsLt_bf16_f32 : FVec Ideal S2048x2048 .bf16) := by
  dsimp only [Gen.V, Gen.hostOps0]; after_results <;> rfl

theorem wv_entry (c : Dev nD) (j k : Fin 2048) :
    (V m c main_v5 : S2048x2048.Idx → Elt Ideal .bf16) (ix2 j k)
      = (m ((c : Thread nD τ).loc main_arg4) : S6144x2048.Idx → Elt Ideal .f32) (ix2 (⟨4096 + k.val, by have := k.isLt; omega⟩ : Fin 6144) j) := by
  rw [V_wv]
  show transpose S2048x2048 [1, 0] (extractStridedSlice S2048x2048 ![4096, 0] (m ((c : Thread nD τ).loc main_arg4) : S6144x2048.Idx → Elt Ideal .f32) slices_S6144x2048_S2048x2048_4096_0)
    transposes_S2048x2048_S2048x2048_1_0 (ix2 j k) = _
  rw [transpose_ix2_apply]
  exact slice2_axis0_apply 4096 (m ((c : Thread nD τ).loc main_arg4) : S6144x2048.Idx → Elt Ideal .f32) slices_S6144x2048_S2048x2048_4096_0 k j _ rfl

/-- The output weights: the argument transposed. -/
theorem V_wout (c : Dev nD) : (V m c main_v7 : S2048x2048.Idx → Elt Ideal .bf16)
    = (truncf (F := Ideal) .bf16 (transpose S2048x2048 [1, 0] (m ((c : Thread nD τ).loc main_arg6) : S2048x2048.Idx → Elt Ideal .f32) transposes_S2048x2048_S2048x2048_1_0) bitsLt_bf16_f32 : FVec Ideal S2048x2048 .bf16) := by
  dsimp only [Gen.V, Gen.hostOps0]; after_results <;> rfl

theorem wout_entry (c : Dev nD) (k e : Fin 2048) :
    (V m c main_v7 : S2048x2048.Idx → Elt Ideal .bf16) (ix2 k e) = (m ((c : Thread nD τ).loc main_arg6) : S2048x2048.Idx → Elt Ideal .f32) (ix2 e k) := by
  rw [V_wout]
  exact transpose_ix2_apply (m ((c : Thread nD τ).loc main_arg6) : S2048x2048.Idx → Elt Ideal .f32) transposes_S2048x2048_S2048x2048_1_0 k e

/-- The metadata bias as a row. -/
theorem V_bmeta (c : Dev nD) : (V m c main_v8 : S1x2048.Idx → Elt Ideal .f32)
    = shapeCast S1x2048 (m ((c : Thread nD τ).loc main_arg3) : S2048.Idx → Elt Ideal .f32) shapeCasts_S2048_S1x2048 := by
  dsimp only [Gen.V, Gen.hostOps0]; after_results <;> rfl

theorem bmeta_entry (c : Dev nD) (j : Fin 2048) :
    (V m c main_v8 : S1x2048.Idx → Elt Ideal .f32) (ix2 (0 : Fin 1) j) = (m ((c : Thread nD τ).loc main_arg3) : S2048.Idx → Elt Ideal .f32) (ix1 j) := by
  rw [V_bmeta]
  exact shapeCast_a_1a_apply _ shapeCasts_S2048_S1x2048 0 j

/-- The value bias (entries 4096 … 6143 of the packed bias) as a row. -/
theorem V_bv (c : Dev nD) : (V m c main_v9 : S1x2048.Idx → Elt Ideal .f32)
    = shapeCast S1x2048 (extractStridedSlice S2048 ![4096] (m ((c : Thread nD τ).loc main_arg5) : S6144.Idx → Elt Ideal .f32) slices_S6144_S2048_4096) shapeCasts_S2048_S1x2048 := by
  dsimp only [Gen.V, Gen.hostOps0]; after_results <;> rfl

theorem bv_entry (c : Dev nD) (k : Fin 2048) :
    (V m c main_v9 : S1x2048.Idx → Elt Ideal .f32) (ix2 (0 : Fin 1) k)
      = (m ((c : Thread nD τ).loc main_arg5) : S6144.Idx → Elt Ideal .f32) (ix1 (⟨4096 + k.val, by have := k.isLt; omega⟩ : Fin 6144)) := by
  rw [V_bv]
  refine (shapeCast_a_1a_apply _ shapeCasts_S2048_S1x2048 0 k).trans ?_
  exact extractStridedSlice_apply _ _ _ _ _ (fun ax => by match ax with | ⟨0, _⟩ => rfl)

/-- The output bias as a row. -/
theorem V_bout (c : Dev nD) : (V m c main_v10 : S1x2048.Idx → Elt Ideal .f32)
    = shapeCast S1x2048 (m ((c : Thread nD τ).loc main_arg7) : S2048.Idx → Elt Ideal .f32) shapeCasts_S2048_S1x2048 := by
  dsimp only [Gen.V, Gen.hostOps0]; after_results <;> rfl

theorem bout_entry (c : Dev nD) (j : Fin 2048) :
    (V m c main_v10 : S1x2048.Idx → Elt Ideal .f32) (ix2 (0 : Fin 1) j) = (m ((c : Thread nD τ).loc main_arg7) : S2048.Idx → Elt Ideal .f32) (ix1 j) := by
  rw [V_bout]
  exact shapeCast_a_1a_apply _ shapeCasts_S2048_S1x2048 0 j

/-- The normalisation's scale as a row. -/
theorem V_gamma (c : Dev nD) : (V m c main_v11 : S1x2048.Idx → Elt Ideal .f32)
    = shapeCast S1x2048 (m ((c : Thread nD τ).loc main_arg8) : S2048.Idx → Elt Ideal .f32) shapeCasts_S2048_S1x2048 := by
  dsimp only [Gen.V, Gen.hostOps0]; after_results <;> rfl

theorem gamma_entry (c : Dev nD) (j : Fin 2048) :
    (V m c main_v11 : S1x2048.Idx → Elt Ideal .f32) (ix2 (0 : Fin 1) j) = (m ((c : Thread nD τ).loc main_arg8) : S2048.Idx → Elt Ideal .f32) (ix1 j) := by
  rw [V_gamma]
  exact shapeCast_a_1a_apply _ shapeCasts_S2048_S1x2048 0 j

/-- The normalisation's shift as a row. -/
theorem V_beta (c : Dev nD) : (V m c main_v12 : S1x2048.Idx → Elt Ideal .f32)
    = shapeCast S1x2048 (m ((c : Thread nD τ).loc main_arg9) : S2048.Idx → Elt Ideal .f32) shapeCasts_S2048_S1x2048 := by
  dsimp only [Gen.V, Gen.hostOps0]; after_results <;> rfl

theorem beta_entry (c : Dev nD) (j : Fin 2048) :
    (V m c main_v12 : S1x2048.Idx → Elt Ideal .f32) (ix2 (0 : Fin 1) j) = (m ((c : Thread nD τ).loc main_arg9) : S2048.Idx → Elt Ideal .f32) (ix1 j) := by
  rw [V_beta]
  exact shapeCast_a_1a_apply _ shapeCasts_S2048_S1x2048 0 j

end Cert.FusionKernel

end
-- ==== Proof.KernelArray.lean ====
/-
  From blocks to the whole array.  Grid point t stages rows 128 t … 128 t + 127 of the image and metadata arrays, the
  whole of each prepared weight array and bias row, and writes back rows 128 t … 128 t + 127 of the result.  Each block of
  the result is therefore the matching block of ONE function of the argument arrays, the specification's; the 128 blocks
  cover the array, so the array after the run is that function.
-/
import proofs.«121445_j49297634623646_1_alg».proof.Proof.Gen.KernelIdeal.Value
import proofs.«121445_j49297634623646_1_alg».proof.Proof.KernelBlock
import proofs.«121445_j49297634623646_1_alg».proof.Proof.KernelArgs
import proofs.«121445_j49297634623646_1_alg».proof.Proof.SpecArray

set_option maxRecDepth 16384

noncomputable section

open scoped BigOperators

namespace Cert.FusionKernel

open Idealize.ShloMosaic Idealize.ShloMosaic.TcCoe Idealize.ShloMosaic.ValueIdx Idealize.SL.Sem
open Cert.KernelIdeal Cert.KernelIdeal.Gen
open Idealize.ShloMosaic.Pipeline (Dat)

variable (m : (ℓ : Loc nD τ sig) → Buf (Elt Ideal) ℓ) (ρ : Dev nD → PrngReg)

/-- The result array the specification assigns to the launch contents of the ten arguments. -/
def result (c : Dev nD) : S16384x4096.Idx → Elt Ideal .f32 :=
  Cert.Fusion.fusedArr (m ((c : Thread nD τ).loc main_arg0) : S16384x2048.Idx → Elt Ideal .f32)
    (m ((c : Thread nD τ).loc main_arg1) : S16384x256.Idx → Elt Ideal .f32)
    (m ((c : Thread nD τ).loc main_arg2) : S2048x256.Idx → Elt Ideal .f32)
    (m ((c : Thread nD τ).loc main_arg3) : S2048.Idx → Elt Ideal .f32)
    (m ((c : Thread nD τ).loc main_arg4) : S6144x2048.Idx → Elt Ideal .f32)
    (m ((c : Thread nD τ).loc main_arg5) : S6144.Idx → Elt Ideal .f32)
    (m ((c : Thread nD τ).loc main_arg6) : S2048x2048.Idx → Elt Ideal .f32)
    (m ((c : Thread nD τ).loc main_arg7) : S2048.Idx → Elt Ideal .f32)
    (m ((c : Thread nD τ).loc main_arg8) : S2048.Idx → Elt Ideal .f32)
    (m ((c : Thread nD τ).loc main_arg9) : S2048.Idx → Elt Ideal .f32)

/-- The printed index maps, decided over the 128 grid points: the image, metadata and result windows move down one block
    of rows per point; every other window stays at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = t.val ∧ win0_10.index t (1 : Fin 2) = 0 :=
  (by decide +kernel : ∀ t : Fin grid0.N, _)

theorem t_lt (t : Fin cfg0.N) : t.val < 128 := lt_of_lt_of_eq t.isLt (N_0 : cfg0.N = 128)

/-- Block t of window 0: rows 128 t … 128 t + 127 of argument 0. -/
theorem iblk0_apply (c : Dev nD) (t : Fin cfg0.N) (p : Fin 128) (q : Fin 2048) :
    (iblk m c 0 t : FVec Ideal S128x2048 .f32) (ix2 p q)
      = (m ((c : Thread nD τ).loc main_arg0) : S16384x2048.Idx → Elt Ideal .f32) (ix2 (⟨128 * t.val + p.val, by have := t_lt t; have := p.isLt; omega⟩ : Fin 16384) q) := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts t
  unfold iblk
  rw [View.read_apply]
  show V m c main_arg0 _ = _
  rw [V_main_arg0]
  refine congrArg (m ((c : Thread nD τ).loc main_arg0) : S16384x2048.Idx → Elt Ideal .f32) (funext fun a => Fin.ext ?_)
  match a with
  | ⟨0, _⟩ => show win0_0.index t (0 : Fin 2) * 128 + 1 * p.val = 128 * t.val + p.val; omega
  | ⟨1, _⟩ => show win0_0.index t (1 : Fin 2) * 2048 + 1 * q.val = q.val; omega

/-- Block t of window 1: rows 128 t … 128 t + 127 of argument 1. -/
theorem iblk1_apply (c : Dev nD) (t : Fin cfg0.N) (p : Fin 128) (q : Fin 256) :
    (iblk m c 1 t : FVec Ideal S128x256 .f32) (ix2 p q)
      = (m ((c : Thread nD τ).loc main_arg1) : S16384x256.Idx → Elt Ideal .f32) (ix2 (⟨128 * t.val + p.val, by have := t_lt t; have := p.isLt; omega⟩ : Fin 16384) q) := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts t
  unfold iblk
  rw [View.read_apply]
  show V m c main_arg1 _ = _
  rw [V_main_arg1]
  refine congrArg (m ((c : Thread nD τ).loc main_arg1) : S16384x256.Idx → Elt Ideal .f32) (funext fun a => Fin.ext ?_)
  match a with
  | ⟨0, _⟩ => show win0_1.index t (0 : Fin 2) * 128 + 1 * p.val = 128 * t.val + p.val; omega
  | ⟨1, _⟩ => show win0_1.index t (1 : Fin 2) * 256 + 1 * q.val = q.val; omega

/-- Window 2 at every point: the metadata weights, transposed. -/
theorem iblk2_apply (c : Dev nD) (t : Fin cfg0.N) (i : Fin 256) (j : Fin 2048) :
    (iblk m c 2 t : FVec Ideal S256x2048 .bf16) (ix2 i j) = (m ((c : Thread nD τ).loc main_arg2) : S2048x256.Idx → Elt Ideal .f32) (ix2 j i) := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts t
  unfold iblk
  rw [View.read_apply]
  show (V m c main_v3 : S256x2048.Idx → Elt Ideal .bf16) _ = _
  refine (congrArg (V m c main_v3 : S256x2048.Idx → Elt Ideal .bf16) (funext fun a => Fin.ext ?_)).trans (wmeta_entry m c i j)
  match a with
  | ⟨0, _⟩ => show win0_2.index t (0 : Fin 2) * 256 + 1 * (ix2 i j 0).val = (ix2 i j 0).val; omega
  | ⟨1, _⟩ => show win0_2.index t (1 : Fin 2) * 2048 + 1 * (ix2 i j 1).val = (ix2 i j 1).val; omega

/-- Window 3 at every point: the metadata bias as a row. -/
theorem iblk3_apply (c : Dev nD) (t : Fin cfg0.N) (j : Fin 2048) :
    (iblk m c 3 t : FVec Ideal S1x2048 .f32) (ix2 (0 : Fin 1) j) = (m ((c : Thread nD τ).loc main_arg3) : S2048.Idx → Elt Ideal .f32) (ix1 j) := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts t
  unfold iblk
  rw [View.read_apply]
  show (V m c main_v8 : S1x2048.Idx → Elt Ideal .f32) _ = _
  refine (congrArg (V m c main_v8 : S1x2048.Idx → Elt Ideal .f32) (funext fun a => Fin.ext ?_)).trans (bmeta_entry m c j)
  match a with
  | ⟨0, _⟩ => show win0_3.index t (0 : Fin 2) * 1 + 1 * (ix2 (0 : Fin 1) j 0).val = (ix2 (0 : Fin 1) j 0).val; omega
  | ⟨1, _⟩ => show win0_3.index t (1 : Fin 2) * 2048 + 1 * (ix2 (0 : Fin 1) j 1).val = (ix2 (0 : Fin 1) j 1).val; omega

/-- Window 4 at every point: the value weights, transposed. -/
theorem iblk4_apply (c : Dev nD) (t : Fin cfg0.N) (j k : Fin 2048) :
    (iblk m c 4 t : FVec Ideal S2048x2048 .bf16) (ix2 j k) = (m ((c : Thread nD τ).loc main_arg4) : S6144x2048.Idx → Elt Ideal .f32) (ix2 (⟨4096 + k.val, by have := k.isLt; omega⟩ : Fin 6144) j) := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts t
  unfold iblk
  rw [View.read_apply]
  show (V m c main_v5 : S2048x2048.Idx → Elt Ideal .bf16) _ = _
  refine (congrArg (V m c main_v5 : S2048x2048.Idx → Elt Ideal .bf16) (funext fun a => Fin.ext ?_)).trans (wv_entry m c j k)
  match a with
  | ⟨0, _⟩ => show win0_4.index t (0 : Fin 2) * 2048 + 1 * (ix2 j k 0).val = (ix2 j k 0).val; omega
  | ⟨1, _⟩ => show win0_4.index t (1 : Fin 2) * 2048 + 1 * (ix2 j k 1).val = (ix2 j k 1).val; omega

/-- Window 5 at every point: the value bias as a row. -/
theorem iblk5_apply (c : Dev nD) (t : Fin cfg0.N) (k : Fin 2048) :
    (iblk m c 5 t : FVec Ideal S1x2048 .f32) (ix2 (0 : Fin 1) k) = (m ((c : Thread nD τ).loc main_arg5) : S6144.Idx → Elt Ideal .f32) (ix1 (⟨4096 + k.val, by have := k.isLt; omega⟩ : Fin 6144)) := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts t
  unfold iblk
  rw [View.read_apply]
  show (V m c main_v9 : S1x2048.Idx → Elt Ideal .f32) _ = _
  refine (congrArg (V m c main_v9 : S1x2048.Idx → Elt Ideal .f32) (funext fun a => Fin.ext ?_)).trans (bv_entry m c k)
  match a with
  | ⟨0, _⟩ => show win0_5.index t (0 : Fin 2) * 1 + 1 * (ix2 (0 : Fin 1) k 0).val = (ix2 (0 : Fin 1) k 0).val; omega
  | ⟨1, _⟩ => show win0_5.index t (1 : Fin 2) * 2048 + 1 * (ix2 (0 : Fin 1) k 1).val = (ix2 (0 : Fin 1) k 1).val; omega

/-- Window 6 at every point: the output weights, transposed. -/
theorem iblk6_apply (c : Dev nD) (t : Fin cfg0.N) (k e : Fin 2048) :
    (iblk m c 6 t : FVec Ideal S2048x2048 .bf16) (ix2 k e) = (m ((c : Thread nD τ).loc main_arg6) : S2048x2048.Idx → Elt Ideal .f32) (ix2 e k) := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts t
  unfold iblk
  rw [View.read_apply]
  show (V m c main_v7 : S2048x2048.Idx → Elt Ideal .bf16) _ = _
  refine (congrArg (V m c main_v7 : S2048x2048.Idx → Elt Ideal .bf16) (funext fun a => Fin.ext ?_)).trans (wout_entry m c k e)
  match a with
  | ⟨0, _⟩ => show win0_6.index t (0 : Fin 2) * 2048 + 1 * (ix2 k e 0).val = (ix2 k e 0).val; omega
  | ⟨1, _⟩ => show win0_6.index t (1 : Fin 2) * 2048 + 1 * (ix2 k e 1).val = (ix2 k e 1).val; omega

/-- Window 7 at every point: the output bias as a row. -/
theorem iblk7_apply (c : Dev nD) (t : Fin cfg0.N) (j : Fin 2048) :
    (iblk m c 7 t : FVec Ideal S1x2048 .f32) (ix2 (0 : Fin 1) j) = (m ((c : Thread nD τ).loc main_arg7) : S2048.Idx → Elt Ideal .f32) (ix1 j) := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts t
  unfold iblk
  rw [View.read_apply]
  show (V m c main_v10 : S1x2048.Idx → Elt Ideal .f32) _ = _
  refine (congrArg (V m c main_v10 : S1x2048.Idx → Elt Ideal .f32) (funext fun a => Fin.ext ?_)).trans (bout_entry m c j)
  match a with
  | ⟨0, _⟩ => show win0_7.index t (0 : Fin 2) * 1 + 1 * (ix2 (0 : Fin 1) j 0).val = (ix2 (0 : Fin 1) j 0).val; omega
  | ⟨1, _⟩ => show win0_7.index t (1 : Fin 2) * 2048 + 1 * (ix2 (0 : Fin 1) j 1).val = (ix2 (0 : Fin 1) j 1).val; omega

/-- Window 8 at every point: the scale as a row. -/
theorem iblk8_apply (c : Dev nD) (t : Fin cfg0.N) (j : Fin 2048) :
    (iblk m c 8 t : FVec Ideal S1x2048 .f32) (ix2 (0 : Fin 1) j) = (m ((c : Thread nD τ).loc main_arg8) : S2048.Idx → Elt Ideal .f32) (ix1 j) := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts t
  unfold iblk
  rw [View.read_apply]
  show (V m c main_v11 : S1x2048.Idx → Elt Ideal .f32) _ = _
  refine (congrArg (V m c main_v11 : S1x2048.Idx → Elt Ideal .f32) (funext fun a => Fin.ext ?_)).trans (gamma_entry m c j)
  match a with
  | ⟨0, _⟩ => show win0_8.index t (0 : Fin 2) * 1 + 1 * (ix2 (0 : Fin 1) j 0).val = (ix2 (0 : Fin 1) j 0).val; omega
  | ⟨1, _⟩ => show win0_8.index t (1 : Fin 2) * 2048 + 1 * (ix2 (0 : Fin 1) j 1).val = (ix2 (0 : Fin 1) j 1).val; omega

/-- Window 9 at every point: the shift as a row. -/
theorem iblk9_apply (c : Dev nD) (t : Fin cfg0.N) (j : Fin 2048) :
    (iblk m c 9 t : FVec Ideal S1x2048 .f32) (ix2 (0 : Fin 1) j) = (m ((c : Thread nD τ).loc main_arg9) : S2048.Idx → Elt Ideal .f32) (ix1 j) := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts t
  unfold iblk
  rw [View.read_apply]
  show (V m c main_v12 : S1x2048.Idx → Elt Ideal .f32) _ = _
  refine (congrArg (V m c main_v12 : S1x2048.Idx → Elt Ideal .f32) (funext fun a => Fin.ext ?_)).trans (beta_entry m c j)
  match a with
  | ⟨0, _⟩ => show win0_9.index t (0 : Fin 2) * 1 + 1 * (ix2 (0 : Fin 1) j 0).val = (ix2 (0 : Fin 1) j 0).val; omega
  | ⟨1, _⟩ => show win0_9.index t (1 : Fin 2) * 2048 + 1 * (ix2 (0 : Fin 1) j 1).val = (ix2 (0 : Fin 1) j 1).val; omega

/-- The block's entry with its two coordinates named. -/
theorem blockOut_ix2 (x0 : FVec Ideal S128x2048 .f32) (x1 : FVec Ideal S128x256 .f32) (x2 : FVec Ideal S256x2048 .bf16) (x3 : FVec Ideal S1x2048 .f32)
    (x4 : FVec Ideal S2048x2048 .bf16) (x5 : FVec Ideal S1x2048 .f32) (x6 : FVec Ideal S2048x2048 .bf16) (x7 x8 x9 : FVec Ideal S1x2048 .f32) (p : Fin 128) (q : Fin 4096) :
    blockOut x0 x1 x2 x3 x4 x5 x6 x7 x8 x9 (ix2 p q)
      = if h : q.val < 2048 then x0 (ix2 p ⟨q.val, h⟩)
        else Cert.Fusion.layerNorm
          (fun e : Fin 2048 => Cert.Fusion.dense
              (Cert.Fusion.dense
                (Cert.Fusion.dense (fun i : Fin 256 => x1 (ix2 p i)) (fun (j : Fin 2048) (i : Fin 256) => x2 (ix2 i j)) (fun j : Fin 2048 => x3 (ix2 (0 : Fin 1) j)))
                (fun (k j : Fin 2048) => x4 (ix2 j k)) (fun k : Fin 2048 => x5 (ix2 (0 : Fin 1) k)))
              (fun (e k : Fin 2048) => x6 (ix2 k e)) (fun e : Fin 2048 => x7 (ix2 (0 : Fin 1) e)) e
            + x0 (ix2 p e))
          (fun e : Fin 2048 => x8 (ix2 (0 : Fin 1) e)) (fun e : Fin 2048 => x9 (ix2 (0 : Fin 1) e))
          ⟨q.val - 2048, by have := q.isLt; omega⟩ := rfl

/-- WHAT POINT t WRITES BACK is block t of the specification's result. -/
theorem flushed_eq (c : Dev nD) (t : Fin cfg0.N) :
    (dats m 0 c).flushed 10 t = ((cfg0.win 10).blk t).view.read (Elt Ideal) (result m c) := by
  rw [Cert.KernelIdeal.Value.flushed10]
  funext y
  obtain ⟨p, q, rfl⟩ : ∃ (p : Fin 128) (q : Fin 4096), y = ix2 p q := ⟨y 0, y 1, eq_ix2 y⟩
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts t
  show out0_10 (F := Ideal) (iblk m c 0 t) (iblk m c 1 t) (iblk m c 2 t) (iblk m c 3 t) (iblk m c 4 t) (iblk m c 5 t) (iblk m c 6 t) (iblk m c 7 t) (iblk m c 8 t) (iblk m c 9 t) (ix2 p q)
      = result m c (((cfg0.win 10).blk t).view.emb (ix2 p q))
  have hz : (((cfg0.win 10).blk t).view.emb (ix2 p q) : S16384x4096.Idx) = ix2 (⟨128 * t.val + p.val, by have := t_lt t; have := p.isLt; omega⟩ : Fin 16384) q :=
    funext fun a => Fin.ext (by
      match a with
      | ⟨0, _⟩ => show win0_10.index t (0 : Fin 2) * 128 + 1 * p.val = 128 * t.val + p.val; omega
      | ⟨1, _⟩ => show win0_10.index t (1 : Fin 2) * 4096 + 1 * q.val = q.val; omega)
  refine ((out_entry _ _ _ _ _ _ _ _ _ _ (ix2 p q)).trans ?_).trans (congrArg (result m c) hz).symm
  rw [blockOut_ix2]
  unfold result
  rw [Cert.Fusion.fusedArr_apply]
  unfold Cert.Fusion.fused
  by_cases h : q.val < 2048
  · rw [dif_pos h, dif_pos h, iblk0_apply]
  · rw [dif_neg h, dif_neg h]
    simp only [iblk0_apply, iblk1_apply, iblk2_apply, iblk3_apply, iblk4_apply, iblk5_apply, iblk6_apply, iblk7_apply, iblk8_apply, iblk9_apply]
    rfl

/-- An index of the result array is in point t's block iff each coordinate is in the block's range on its axis. -/
theorem mem_blk (t : Fin cfg0.N) (i : S16384x4096.Idx) :
    i ∈ ((cfg0.win 10).blk t).view.set ↔ ∀ a : Fin 2, win0_10.index t a * S128x4096.size a ≤ (i a).val ∧ (i a).val < win0_10.index t a * S128x4096.size a + S128x4096.size a := by
  show i ∈ ((View.whole main_v13).slice (win0_10.rect t)).set ↔ _
  rw [View.set_slice_whole, Rect.mem_set_unit]
  exact Iff.rfl

/-- The 128 row blocks cover the result array: row r lies in the block of point r / 128. -/
theorem covered (i : S16384x4096.Idx) :
    ∃ t : Fin cfg0.N, (cfg0.win 10).flush t = true ∧ i ∈ ((cfg0.win 10).blk t).view.set := by
  have hi0 : (i 0).val < 16384 := idx2_lt0 i
  have hi1 : (i 1).val < 4096 := idx2_lt1 i
  have hN : cfg0.N = 128 := N_0
  let t : Fin cfg0.N := ⟨(i 0).val / 128, by rw [hN]; omega⟩
  have ht : t.val = (i 0).val / 128 := rfl
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts t
  refine ⟨t, flush0_10 t, ?_⟩
  rw [mem_blk]
  intro a
  match a with
  | ⟨0, _⟩ => show win0_10.index t (0 : Fin 2) * 128 ≤ (i 0).val ∧ (i 0).val < win0_10.index t (0 : Fin 2) * 128 + 128; omega
  | ⟨1, _⟩ => show win0_10.index t (1 : Fin 2) * 4096 ≤ (i 1).val ∧ (i 1).val < win0_10.index t (1 : Fin 2) * 4096 + 4096; omega

/-- THE ARRAY after the run is the specification's result of the arguments. -/
theorem final (c : Dev nD) : (dats m 0 c).arrAt 10 cfg0.N = result m c :=
  (dats m 0 c).arrAt_eq_of_cover 10 (result m c) (fun t _ => flushed_eq m c t) (covered)

/-- The kernel's run, read: the result array at the specification's function of the arguments, the arguments unchanged. -/
theorem run : θ_run defs (onTc (τ := τ) (main (F := Ideal))) ⟨m, fun _ => 0, ρ⟩ fun r => ∀ c : Dev nD,
      r.2.mem ((c : Thread nD τ).loc main_v13) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m c), (h c).2⟩) (Cert.KernelIdeal.Value.run_blocks m ρ)

end Cert.FusionKernel

end
-- ==== Proof.FiniteArgs.lean ====
/-
  Every float input is finite, read back: each entry of each argument array is a real number.

  The precondition computes, per argument `a`, the array of comparisons `|a i| < +∞` (the absolute value is
  `max x (-x)` on the extended reals, and the pattern 0x7F800000 denotes `⊤`), reduces it by `and` over all axes to
  one bit, and conjoins the ten bits. If the result is 1 then every one of the ten bits is 1, so every comparison is 1,
  so `max (a i) (-a i) < ⊤` at every index. An extended real `x` with `max x (-x) < ⊤` is neither `⊤` (then
  `max x (-x) = ⊤`) nor `⊥` (then `-x = ⊤`), hence is the image of a real.
-/
import proofs.«121445_j49297634623646_1_alg».proof.Pre_finite_inputs
import proofs.«121445_j49297634623646_1_alg».proof.Proof.Gen.Pre_finite_inputs
import Idealize.ShloMosaic.PureOps.Ideal
import Idealize.ShloMosaic.Lib.ReduceAll
import Idealize.ShloMosaic.Lib.IdealHost

namespace Cert.FiniteArgs

open Idealize.ShloMosaic
open Cert.Pre_finite_inputs

/-- The rank-0 shape has exactly one index (the empty tuple). -/
instance : Subsingleton S_.Idx := ⟨fun a b => funext fun d => d.elim0⟩

/-- An extended real whose absolute value `max x (-x)` is below `⊤` is a real: `⊤` has absolute value `⊤`, and
so does `⊥` since `-⊥ = ⊤`. -/
theorem real_of_abs_lt_top (x : EReal) (h : max x (-x) < (⊤ : EReal)) : ∃ r : ℝ, x = (r : EReal) := by
  induction x using EReal.rec with
  | bot => simp at h
  | coe r => exact ⟨r, rfl⟩
  | top => simp at h

/-- One argument: if the `and` over all indices of the comparisons `|a i| < +∞` is 1, every entry of `a` is real.
Every comparison is then 1; the scalar `+∞` broadcast to the shape reads `⊤` at each index; and the comparison being
1 says `max (a i) (-a i) < ⊤`. -/
theorem allReal_of_reduce {S : Shape} {axes : List (Fin S.rank)}
    (hb : S_.BroadcastsInDim S (![] : Fin 0 → Fin S.rank)) (hr : S.ReducesTo axes S_) (hu : 0 < S_.numel)
    (a : FVec Ideal S .f32) (init : IVec S_ 1) (j : S_.Idx)
    (e : Host.reduce IntOp.andi
          (cmpf .olt (Host.absf a) (broadcastInDim S ![] hb (constant S_ .f32 0x7F800000#32))) init hr hu j = 1#1) :
    ∀ i, ∃ r : ℝ, a i = (r : EReal) := by
  intro i
  have h1 := Host.reduce_andi_all _ init hr hu j e i
  refine real_of_abs_lt_top (a i) ?_
  simp only [cmpf, Host.absf, ValueIdx.broadcastInDim_scalar_apply, constant] at h1
  have h2 : Ideal.cmp .olt (max (a i) (-(a i))) (Ideal.ofBits .f32 0x7F800000#32) = 1#1 := h1
  have h3 : Ideal.ofBits .f32 0x7F800000#32 = (⊤ : EReal) := by simp [Ideal.ofBits, Ideal.ieee]
  rw [h3] at h2
  by_contra hn
  simp [Ideal.cmp, hn] at h2

/-- All ten arguments: the precondition's bit is the `and` of the ten per-argument bits, so if it is 1 each of them
is 1, and the one-argument statement applies to each. -/
theorem allReal_of_finite_inputs [Cert.Pre_finite_inputs.Facts]
    (a0 : FVec Ideal S16384x2048 .f32) (a1 : FVec Ideal S16384x256 .f32) (a2 : FVec Ideal S2048x256 .f32)
    (a3 : FVec Ideal S2048 .f32) (a4 : FVec Ideal S6144x2048 .f32) (a5 : FVec Ideal S6144 .f32)
    (a6 : FVec Ideal S2048x2048 .f32) (a7 a8 a9 : FVec Ideal S2048 .f32)
    (h : Cert.Pre_finite_inputs.fn (F := Ideal) a0 a1 a2 a3 a4 a5 a6 a7 a8 a9 = (fun _ => 1#1)) :
    (∀ i, ∃ r : ℝ, a0 i = (r : EReal)) ∧ (∀ i, ∃ r : ℝ, a1 i = (r : EReal)) ∧
    (∀ i, ∃ r : ℝ, a2 i = (r : EReal)) ∧ (∀ i, ∃ r : ℝ, a3 i = (r : EReal)) ∧
    (∀ i, ∃ r : ℝ, a4 i = (r : EReal)) ∧ (∀ i, ∃ r : ℝ, a5 i = (r : EReal)) ∧
    (∀ i, ∃ r : ℝ, a6 i = (r : EReal)) ∧ (∀ i, ∃ r : ℝ, a7 i = (r : EReal)) ∧
    (∀ i, ∃ r : ℝ, a8 i = (r : EReal)) ∧ (∀ i, ∃ r : ℝ, a9 i = (r : EReal)) := by
  have e := congrFun h ValueIdx.ix0
  dsimp only [fn, fn_part1, fn_part2, Idealize.ShloMosaic.andi] at e
  simp only [IntOp.andi_eq_one] at e
  obtain ⟨⟨⟨⟨⟨⟨⟨⟨⟨e0, e1⟩, e2⟩, e3⟩, e4⟩, e5⟩, e6⟩, e7⟩, e8⟩, e9⟩ := e
  exact ⟨allReal_of_reduce _ _ _ a0 _ _ e0, allReal_of_reduce _ _ _ a1 _ _ e1, allReal_of_reduce _ _ _ a2 _ _ e2,
    allReal_of_reduce _ _ _ a3 _ _ e3, allReal_of_reduce _ _ _ a4 _ _ e4, allReal_of_reduce _ _ _ a5 _ _ e5,
    allReal_of_reduce _ _ _ a6 _ _ e6, allReal_of_reduce _ _ _ a7 _ _ e7, allReal_of_reduce _ _ _ a8 _ _ e8,
    allReal_of_reduce _ _ _ a9 _ _ e9⟩

end Cert.FiniteArgs
-- ==== Proof.LibOneKeySoftmax.lean ====
/-
  Real-valued extended reals, and the softmax over a single key.

  An extended real is *real* when it is the image of a real number.  Reals are closed under sums, products and
  finite sums; the score scale (the binary32 word 0x3DB504F3) is real.  For a real score `s` the softmax over the
  one-element set {s} is exp (s − s) / exp (s − s) = 1: the subtraction `s − s` is 0 exactly because `s` is finite.
-/
import Idealize.ShloMosaic.PureOps.Ideal
import Idealize.ShloMosaic.PureOps.Ideal.Laws

noncomputable section

open scoped BigOperators

namespace Cert.OneKey

open Idealize.ShloMosaic

/-- An extended real that is (the image of) a real number. -/
def IsReal (x : EReal) : Prop := ∃ r : ℝ, x = (r : EReal)

theorem IsReal.zero : IsReal 0 := ⟨0, rfl⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- A finite sum of reals is real. -/
theorem IsReal.sum {ι : Type*} (s : Finset ι) (f : ι → EReal) (h : ∀ i ∈ s, IsReal (f i)) :
    IsReal (∑ i ∈ s, f i) := by
  classical
  induction s using Finset.induction_on with
  | empty => simpa using IsReal.zero
  | insert a s ha ih =>
    rw [Finset.sum_insert ha]
    exact (h a (Finset.mem_insert_self a s)).add (ih fun i hi => h i (Finset.mem_insert_of_mem hi))

/-- The score scale 1/√128 rounded to binary32 (the word 0x3DB504F3) is a real number. -/
theorem isReal_scale : IsReal (Ideal.ofBits .f32 0x3DB504F3#32) := by
  unfold Ideal.ofBits Ideal.ieee
  simp only []
  rw [if_neg (by decide), if_neg (by decide)]
  exact ⟨_, rfl⟩

/-- The binary32 word of −∞ is the bottom element. -/
theorem ofBits_neg_inf : Ideal.ofBits .f32 0xFF800000#32 = (⊥ : EReal) := by
  simp [Ideal.ofBits, Ideal.ieee]

/-- A real number minus itself is zero (false at ±∞). -/
theorem IsReal.sub_self {s : EReal} (hs : IsReal s) : s - s = 0 := by
  obtain ⟨r, rfl⟩ := hs
  rw [← EReal.coe_sub, _root_.sub_self, EReal.coe_zero]

theorem exp_zero : Ideal.exp 0 = 1 := by
  rw [← EReal.coe_zero, Ideal.exp_coe, Real.exp_zero, EReal.coe_one]

theorem div_one_one : Ideal.div 1 1 = 1 := by
  simp [Ideal.div]

/-- The softmax weight of the only key: with a real score `s`, the maximum over {s} taken from −∞ is `s`, the
    shifted score is 0, its exponential 1, the normaliser 0 + 1, and the weight 1 / 1 = 1. -/
theorem softmax_one_key {s : EReal} (hs : IsReal s) :
    Ideal.div (Ideal.exp (s - max ⊥ (max ⊥ s))) (0 + Ideal.exp (s - max ⊥ (max ⊥ s))) = 1 := by
  rw [max_bot_left, max_bot_left, hs.sub_self, exp_zero, zero_add, div_one_one]

end Cert.OneKey

end
-- ==== Proof.OneKey.lean ====
/-
  With a single key the attention weights are 1, so the attention output is the value projection.

  For a batch row b and head h the reference forms the score  s = (0 + ∑_{d<128} q[b,128h+d] · k[b,128h+d]) · c  (c the
  scale, the binary32 word 0x3DB504F3), and the softmax over the key axis, whose length is ONE:
      m = max(−∞, max over {s} from −∞) = s,   e = exp (s − m) = exp 0 = 1,   z = 0 + e = 1,   w = e / z = 1.
  The step  s − s = 0  holds because s is a real number: every input entry is real, and reals are closed under the
  sums and products that build q, k and s.  The attention output  w · v  is then v, and splitting the 2048 features
  into [16,128] and merging them back is the identity on indices ((e / 128) · 128 + e % 128 = e).
-/
import proofs.«121445_j49297634623646_1_alg».proof.Proof.RefReadP
import proofs.«121445_j49297634623646_1_alg».proof.Proof.LibOneKeySoftmax
import Idealize.ShloMosaic.Lib.ValueIdx
import Idealize.ShloMosaic.PureOps.Reduce
import Idealize.ShloMosaic.PureOps.Ideal.Laws

noncomputable section

open scoped BigOperators

namespace Cert.OneKey

open Cert.ReferenceIdeal Cert.ReferenceIdeal.Gen Cert.ReferenceIdeal.Read Idealize.ShloMosaic Idealize.ShloMosaic.TcCoe Idealize.SL.Sem Idealize.ShloMosaic.StableHlo

/-! ## Every entry of the query, the key and the score is a real number -/

section Real

variable (x0 : (⟨S16384x2048, .f32⟩ : BufTy).Contents (Elt Ideal)) (x1 : (⟨S16384x256, .f32⟩ : BufTy).Contents (Elt Ideal)) (x2 : (⟨S2048x256, .f32⟩ : BufTy).Contents (Elt Ideal)) (x3 : (⟨S2048, .f32⟩ : BufTy).Contents (Elt Ideal)) (x4 : (⟨S6144x2048, .f32⟩ : BufTy).Contents (Elt Ideal)) (x5 : (⟨S6144, .f32⟩ : BufTy).Contents (Elt Ideal))

/-- W_metaᵀ. -/
theorem real_v0 (h2 : ∀ i, IsReal (x2 i)) (i : S256x2048.Idx) : IsReal (val_main_v0 (F := Ideal) x2 i) := by
  rw [val_main_v0_apply]; exact h2 _

/-- md · W_metaᵀ. -/
theorem real_v1 (h1 : ∀ i, IsReal (x1 i)) (h2 : ∀ i, IsReal (x2 i)) (i : S16384x2048.Idx) : IsReal (val_main_v1 (F := Ideal) x1 x2 i) := by
  rw [val_main_v1_apply]
  exact IsReal.sum _ _ fun k _ => (h1 _).mul (real_v0 x2 h2 _)

/-- kv = md · W_metaᵀ + b_meta. -/
theorem real_v4 (h1 : ∀ i, IsReal (x1 i)) (h2 : ∀ i, IsReal (x2 i)) (h3 : ∀ i, IsReal (x3 i)) (i : S16384x2048.Idx) : IsReal (val_main_v4 (F := Ideal) x1 x2 x3 i) := by
  rw [val_main_v4_apply, val_main_v3_apply, val_main_v2_apply, Ideal.addf_def]
  exact (real_v1 x1 x2 h1 h2 _).add (h3 _)

/-- W_qᵀ: the first band of the packed in-projection, transposed. -/
theorem real_v11 (h4 : ∀ i, IsReal (x4 i)) (i : S2048x2048.Idx) : IsReal (val_main_v11 (F := Ideal) x4 i) := by
  rw [val_main_v11_apply, val_main_v5_apply]; exact h4 _

/-- q = img · W_qᵀ + b_q. -/
theorem real_v15 (h0 : ∀ i, IsReal (x0 i)) (h4 : ∀ i, IsReal (x4 i)) (h5 : ∀ i, IsReal (x5 i)) (i : S16384x2048.Idx) : IsReal (val_main_v15 (F := Ideal) x0 x4 x5 i) := by
  rw [val_main_v15_apply, val_main_v12_apply, val_main_v14_apply, val_main_v13_apply, val_main_v8_apply, Ideal.addf_def]
  exact (IsReal.sum _ _ fun k _ => (h0 _).mul (real_v11 x4 h4 _)).add (h5 _)

/-- W_kᵀ: the second band of the packed in-projection, transposed. -/
theorem real_v16 (h4 : ∀ i, IsReal (x4 i)) (i : S2048x2048.Idx) : IsReal (val_main_v16 (F := Ideal) x4 i) := by
  rw [val_main_v16_apply, val_main_v6_apply]; exact h4 _

/-- k = kv · W_kᵀ + b_k. -/
theorem real_v20 (h1 : ∀ i, IsReal (x1 i)) (h2 : ∀ i, IsReal (x2 i)) (h3 : ∀ i, IsReal (x3 i)) (h4 : ∀ i, IsReal (x4 i)) (h5 : ∀ i, IsReal (x5 i)) (i : S16384x2048.Idx) : IsReal (val_main_v20 (F := Ideal) x1 x2 x3 x4 x5 i) := by
  rw [val_main_v20_apply, val_main_v17_apply, val_main_v19_apply, val_main_v18_apply, val_main_v9_apply, Ideal.addf_def]
  exact (IsReal.sum _ _ fun k _ => (real_v4 x1 x2 x3 h1 h2 h3 _).mul (real_v16 x4 h4 _)).add (h5 _)

/-- The score  s = (0 + ∑_d q · k) · c  is a real number. -/
theorem real_v33 (h0 : ∀ i, IsReal (x0 i)) (h1 : ∀ i, IsReal (x1 i)) (h2 : ∀ i, IsReal (x2 i)) (h3 : ∀ i, IsReal (x3 i)) (h4 : ∀ i, IsReal (x4 i)) (h5 : ∀ i, IsReal (x5 i)) (j : S16384x16x1.Idx) : IsReal (val_main_v33 (F := Ideal) x0 x1 x2 x3 x4 x5 j) := by
  rw [val_main_v33_apply, val_main_v31_apply, val_main_v30_apply, val_main_v32_apply, val_main_cst_0_apply, val_main_cst_apply,
    Ideal.mulf_def, Ideal.ofBits_def, Ideal.ofBits_def, Ideal.ofBits_zero_f32]
  refine ((IsReal.zero.add (IsReal.sum _ _ fun k _ => ?_))).mul isReal_scale
  rw [val_main_v29_apply, val_main_v26_apply, val_main_v27_apply, Ideal.mulf_def]
  exact (real_v15 x0 x4 x5 h0 h4 h5 _).mul (real_v20 x1 x2 x3 x4 x5 h1 h2 h3 h4 h5 _)

end Real

/-! ## The maximum over the one-element key axis -/

/-- A fold over the one-element index set is one application of the operation. -/
theorem fold_univ_fin_one {α : Type*} (op : α → α → α) [Std.Commutative op] [Std.Associative op] (b : α) (f : Fin 1 → α) :
    (Finset.univ : Finset (Fin 1)).fold op b f = op (f 0) b := by
  rw [Finset.univ_unique, Finset.fold_singleton]; rfl

/-- An index of the [16384,16,1] score array is determined by its first two coordinates: the third is 0. -/
theorem idx_keepdims (j : S16384x16x1.Idx) (k : Fin 1) : idx_main_v40 (idx_main_v37 j) k = j :=
  funext fun a => Fin.ext (by
    match a with
    | ⟨0, _⟩ => rfl
    | ⟨1, _⟩ => rfl
    | ⟨2, _⟩ =>
      have hk : k.val < 1 := k.isLt
      have hj : (j 2).val < 1 := (j 2).isLt
      show k.val = (j 2).val
      omega)

section Weight

variable (x0 : (⟨S16384x2048, .f32⟩ : BufTy).Contents (Elt Ideal)) (x1 : (⟨S16384x256, .f32⟩ : BufTy).Contents (Elt Ideal)) (x2 : (⟨S2048x256, .f32⟩ : BufTy).Contents (Elt Ideal)) (x3 : (⟨S2048, .f32⟩ : BufTy).Contents (Elt Ideal)) (x4 : (⟨S6144x2048, .f32⟩ : BufTy).Contents (Elt Ideal)) (x5 : (⟨S6144, .f32⟩ : BufTy).Contents (Elt Ideal))

/-- The running maximum over the key axis (one key), taken from −∞, is the score itself. -/
theorem val_main_v34_apply (i : S16384x16.Idx) :
    val_main_v34 (F := Ideal) x0 x1 x2 x3 x4 x5 i = max (val_main_v33 (F := Ideal) x0 x1 x2 x3 x4 x5 (idx_main_v40 i 0)) ⊥ := by
  unfold val_main_v34
  generalize val_main_v33 (F := Ideal) x0 x1 x2 x3 x4 x5 = y
  refine (Host.reduce_eq_fold_single (FloatOps.maximumf (F := Ideal) (φ := .f32)) y _ reducesTo_S16384x16x1_S16384x16_d2
    (by decide) h_S_ i).trans ?_
  refine (fold_univ_fin_one _ _ _).trans ?_
  rw [val_main_cst_1_apply, Ideal.ofBits_def, ofBits_neg_inf, Ideal.maximumf_def]
  refine congrArg (fun t => max (y t) ⊥) (funext fun a => Fin.ext (by
    match a with
    | ⟨0, _⟩ => rfl
    | ⟨1, _⟩ => rfl
    | ⟨2, _⟩ => rfl))

/-- The softmax weight of the only key is 1. -/
theorem weight_eq_one (h0 : ∀ i, IsReal (x0 i)) (h1 : ∀ i, IsReal (x1 i)) (h2 : ∀ i, IsReal (x2 i)) (h3 : ∀ i, IsReal (x3 i)) (h4 : ∀ i, IsReal (x4 i)) (h5 : ∀ i, IsReal (x5 i)) (j : S16384x16x1.Idx) :
    val_main_v42 (F := Ideal) x0 x1 x2 x3 x4 x5 j = 1 := by
  have hs : IsReal (val_main_v33 (F := Ideal) x0 x1 x2 x3 x4 x5 j) := real_v33 x0 x1 x2 x3 x4 x5 h0 h1 h2 h3 h4 h5 j
  have hj : idx_main_v40 (idx_main_v41 j) 0 = j := idx_keepdims j 0
  have hj' : idx_main_v40 (idx_main_v37 j) 0 = j := idx_keepdims j 0
  rw [val_main_v42_apply, val_main_v41_apply, val_main_v40_apply, Fin.sum_univ_one, hj, val_main_v39_apply, val_main_v38_apply,
    val_main_v37_apply, val_main_v36_apply, val_main_v35_apply, val_main_cst_2_apply, val_main_v34_apply, hj', val_main_cst_3_apply]
  simp only [Ideal.hostDivf_def, Ideal.hostUnary_exp_def, Ideal.subf_def, Ideal.maximumf_def, Ideal.ofBits_def, ofBits_neg_inf,
    Ideal.ofBits_zero_f32]
  rw [max_comm (val_main_v33 (F := Ideal) x0 x1 x2 x3 x4 x5 j) ⊥]
  exact softmax_one_key hs

end Weight

/-! ## The attention output is the value projection -/

/-- Splitting the 2048 features into [16,128] and merging them back is the identity on indices. -/
theorem idx_split_merge (i : S16384x2048.Idx) : idx_main_v28 (idx_main_v45 i) = i :=
  funext fun a => Fin.ext (by
    have h0 : (i 0).val < 16384 := (i 0).isLt
    have h1 : (i 1).val < 2048 := (i 1).isLt
    match a with
    | ⟨0, _⟩ =>
      show ((((i 0).val * 2048 + (i 1).val) / 2048 * 16 + ((i 0).val * 2048 + (i 1).val) / 128 % 16) * 128
        + ((i 0).val * 2048 + (i 1).val) % 128) / 2048 = (i 0).val
      omega
    | ⟨1, _⟩ =>
      show ((((i 0).val * 2048 + (i 1).val) / 2048 * 16 + ((i 0).val * 2048 + (i 1).val) / 128 % 16) * 128
        + ((i 0).val * 2048 + (i 1).val) % 128) % 2048 = (i 1).val
      omega)

/-- With one key the attended values are the value projection  v = kv · W_vᵀ + b_v : the reference's attention
    output (before the output projection) equals its value projection, entry by entry. -/
theorem attended_eq_value
    (x0 : (⟨S16384x2048, .f32⟩ : BufTy).Contents (Elt Ideal)) (x1 : (⟨S16384x256, .f32⟩ : BufTy).Contents (Elt Ideal)) (x2 : (⟨S2048x256, .f32⟩ : BufTy).Contents (Elt Ideal)) (x3 : (⟨S2048, .f32⟩ : BufTy).Contents (Elt Ideal)) (x4 : (⟨S6144x2048, .f32⟩ : BufTy).Contents (Elt Ideal)) (x5 : (⟨S6144, .f32⟩ : BufTy).Contents (Elt Ideal))
    (h0 : ∀ i, ∃ r : ℝ, x0 i = (r : EReal)) (h1 : ∀ i, ∃ r : ℝ, x1 i = (r : EReal)) (h2 : ∀ i, ∃ r : ℝ, x2 i = (r : EReal))
    (h3 : ∀ i, ∃ r : ℝ, x3 i = (r : EReal)) (h4 : ∀ i, ∃ r : ℝ, x4 i = (r : EReal)) (h5 : ∀ i, ∃ r : ℝ, x5 i = (r : EReal)) :
    val_main_v45 (F := Ideal) x0 x1 x2 x3 x4 x5 = val_main_v25 (F := Ideal) x1 x2 x3 x4 x5 := by
  funext i
  rw [val_main_v45_apply, val_main_v44_apply, val_main_v43_apply, weight_eq_one x0 x1 x2 x3 x4 x5 h0 h1 h2 h3 h4 h5, val_main_v28_apply,
    idx_split_merge, Ideal.mulf_def, one_mul]

end Cert.OneKey

end
-- ==== Proof.RefFused.lean ====
/-
  The reference program's result is the common function `Cert.Fusion.fused`, given that the attention output
  equals the value projection.

  The reference is read one operation at a time, each at an index written with its coordinates:

    * the first dense layer    kv[r, j] = ∑ i, meta[r, i] · W_meta[j, i] + b_meta[j]            (`kv_entry`)
    * the value projection     v[r, k]  = ∑ j, kv[r, j] · W_in[4096 + k, j] + b_in[4096 + k]     (`value_entry`)
    * the normalised row       x[r, e]  = ∑ k, v[r, k] · W_out[e, k] + b_out[e] + img[r, e]      (`resid_entry`),
      where the operand of the output projection, the attention output, is replaced by `v` through the hypothesis
    * the row mean μ = (0 + ∑ e, x[r, e]) / 2048                                                 (`mean_entry`)
    * the deviations x[r, e] − μ, computed twice by the program                                  (`centred_entry`, `centred_entry'`)
    * the row variance (0 + ∑ e, (x[r, e] − μ)²) / 2048                                          (`variance_entry`)
    * ((x[r, e] − μ) · rsqrt (variance + ε)) · γ[e] + β[e]                                       (`normalised_entry`)
    * the concatenation along the columns: column c < 2048 reads img[r, c], column c ≥ 2048 reads the normalised
      row at c − 2048                                                                            (`reference_eq_fused`).

  A transposed weight matrix read at (k, e) is the stored matrix at (e, k); a slice of the packed in-projection read at
  row k is the packed array at row 4096 + k; a broadcast bias read at (r, e) is the bias at e; a per-row scalar
  broadcast along the features is the scalar of that row. Over the extended reals every operation is the exact one, and
  a sum started at the zero literal is the sum.
-/
import proofs.«121445_j49297634623646_1_alg».proof.Proof.RefReadP
import proofs.«121445_j49297634623646_1_alg».proof.Proof.Spec

noncomputable section

open scoped BigOperators

namespace Cert.RefFused

open Idealize.ShloMosaic Idealize.ShloMosaic.ValueIdx Cert.ReferenceIdeal Cert.ReferenceIdeal.Read

variable (x0 : (⟨S16384x2048, .f32⟩ : BufTy).Contents (Elt Ideal)) (x1 : (⟨S16384x256, .f32⟩ : BufTy).Contents (Elt Ideal))
  (x2 : (⟨S2048x256, .f32⟩ : BufTy).Contents (Elt Ideal)) (x3 : (⟨S2048, .f32⟩ : BufTy).Contents (Elt Ideal))
  (x4 : (⟨S6144x2048, .f32⟩ : BufTy).Contents (Elt Ideal)) (x5 : (⟨S6144, .f32⟩ : BufTy).Contents (Elt Ideal))
  (x6 : (⟨S2048x2048, .f32⟩ : BufTy).Contents (Elt Ideal)) (x7 x8 x9 : (⟨S2048, .f32⟩ : BufTy).Contents (Elt Ideal))

/-- The first dense layer (metadata → 2048 features) at row `r`, feature `j`. -/
theorem kv_entry (r : Fin 16384) (j : Fin 2048) :
    val_main_v4 (F := Ideal) x1 x2 x3 (ix2 r j)
      = Cert.Fusion.dense (fun i => x1 (ix2 r i)) (fun j i => x2 (ix2 j i)) (fun j => x3 (ix1 j)) j := by
  have e1 : ∀ k : Fin 256, lidx_main_v1 (ix2 r j) k = ix2 r k := fun k =>
    funext fun a => Fin.ext (by match a with | ⟨0, _⟩ => rfl | ⟨1, _⟩ => rfl)
  have e2 : ∀ k : Fin 256, idx_main_v0 (ridx_main_v1 (ix2 r j) k) = ix2 j k := fun k =>
    funext fun a => Fin.ext (by match a with | ⟨0, _⟩ => rfl | ⟨1, _⟩ => rfl)
  have e3 : idx_main_v2 (idx_main_v3 (ix2 r j)) = ix1 j :=
    funext fun a => Fin.ext (by match a with | ⟨0, _⟩ => rfl)
  rw [val_main_v4_apply, val_main_v1_apply, val_main_v3_apply, val_main_v2_apply]
  simp only [val_main_v0_apply, e1, e2, e3, Ideal.addf_def]
  rfl

/-- The value projection at row `r`, feature `k`: the dense layer with rows 4096 … 6143 of the packed weights. -/
theorem value_entry (r : Fin 16384) (k : Fin 2048) :
    val_main_v25 (F := Ideal) x1 x2 x3 x4 x5 (ix2 r k)
      = Cert.Fusion.dense (Cert.Fusion.dense (fun i => x1 (ix2 r i)) (fun j i => x2 (ix2 j i)) (fun j => x3 (ix1 j)))
          (Cert.Fusion.valueRows fun a j => x4 (ix2 a j)) (Cert.Fusion.valueBias fun a => x5 (ix1 a)) k := by
  have e1 : ∀ j : Fin 2048, lidx_main_v22 (ix2 r k) j = ix2 r j := fun j =>
    funext fun a => Fin.ext (by match a with | ⟨0, _⟩ => rfl | ⟨1, _⟩ => rfl)
  have e2 : ∀ j : Fin 2048, idx_main_v7 (idx_main_v21 (ridx_main_v22 (ix2 r k) j))
      = ix2 (⟨4096 + k.val, by have := k.isLt; omega⟩ : Fin 6144) j := fun j =>
    funext fun a => Fin.ext (by match a with | ⟨0, _⟩ => rfl | ⟨1, _⟩ => rfl)
  have e3 : idx_main_v10 (idx_main_v23 (idx_main_v24 (ix2 r k)))
      = ix1 (⟨4096 + k.val, by have := k.isLt; omega⟩ : Fin 6144) :=
    funext fun a => Fin.ext (by match a with | ⟨0, _⟩ => rfl)
  rw [val_main_v25_apply, val_main_v22_apply, val_main_v24_apply, val_main_v23_apply, val_main_v10_apply]
  simp only [val_main_v21_apply, val_main_v7_apply, e1, e2, e3, kv_entry, Ideal.addf_def]
  rfl

/-- The row that is normalised, at row `r`, feature `e`: the output projection of the attention output plus the
    image row, with the attention output replaced by the value projection. -/
theorem resid_entry
    (hv : val_main_v45 (F := Ideal) x0 x1 x2 x3 x4 x5 = val_main_v25 (F := Ideal) x1 x2 x3 x4 x5)
    (r : Fin 16384) (e : Fin 2048) :
    val_main_v51 (F := Ideal) x0 x1 x2 x3 x4 x5 x6 x7 (ix2 r e)
      = Cert.Fusion.resid (fun r c => x0 (ix2 r c)) (fun r i => x1 (ix2 r i)) (fun j i => x2 (ix2 j i)) (fun j => x3 (ix1 j))
          (fun a j => x4 (ix2 a j)) (fun a => x5 (ix1 a)) (fun e k => x6 (ix2 e k)) (fun e => x7 (ix1 e)) r e := by
  have e1 : ∀ k : Fin 2048, lidx_main_v47 (ix2 r e) k = ix2 r k := fun k =>
    funext fun a => Fin.ext (by match a with | ⟨0, _⟩ => rfl | ⟨1, _⟩ => rfl)
  have e2 : ∀ k : Fin 2048, idx_main_v46 (ridx_main_v47 (ix2 r e) k) = ix2 e k := fun k =>
    funext fun a => Fin.ext (by match a with | ⟨0, _⟩ => rfl | ⟨1, _⟩ => rfl)
  have e3 : idx_main_v48 (idx_main_v49 (ix2 r e)) = ix1 e :=
    funext fun a => Fin.ext (by match a with | ⟨0, _⟩ => rfl)
  rw [val_main_v51_apply, val_main_v50_apply, val_main_v47_apply, hv, val_main_v49_apply, val_main_v48_apply]
  simp only [val_main_v46_apply, e1, e2, e3, value_entry, Ideal.addf_def]
  rfl

/-- Row `r` of the array that is normalised, as a function of the feature. -/
abbrev row (r : Fin 16384) : Fin 2048 → EReal :=
  fun e => val_main_v51 (F := Ideal) x0 x1 x2 x3 x4 x5 x6 x7 (ix2 r e)

/-- The row mean: the sum over the 2048 features (started at the zero literal) divided by the literal 2048. -/
theorem mean_entry (r : Fin 16384) :
    val_main_v55 (F := Ideal) x0 x1 x2 x3 x4 x5 x6 x7 (ix2 r (0 : Fin 1))
      = Cert.Fusion.mean (row x0 x1 x2 x3 x4 x5 x6 x7 r) := by
  have e1 : ∀ k : Fin 2048, idx_main_v52 (idx_main_v53 (ix2 r (0 : Fin 1))) k = ix2 r k := fun k =>
    funext fun a => Fin.ext (by match a with | ⟨0, _⟩ => rfl | ⟨1, _⟩ => rfl)
  rw [val_main_v55_apply, val_main_v53_apply, val_main_v52_apply, val_main_v54_apply, val_main_cst_5_apply,
    val_main_cst_4_apply]
  simp only [e1, Ideal.hostDivf_def, Ideal.ofBits_def, Ideal.ofBits_zero_f32, zero_add]
  rfl

/-- The entry minus the row mean (the subtraction that feeds the variance). -/
theorem centred_entry (r : Fin 16384) (e : Fin 2048) :
    val_main_v57 (F := Ideal) x0 x1 x2 x3 x4 x5 x6 x7 (ix2 r e)
      = Cert.Fusion.centred (row x0 x1 x2 x3 x4 x5 x6 x7 r) e := by
  have e1 : idx_main_v56 (ix2 r e) = ix2 r (0 : Fin 1) :=
    funext fun a => Fin.ext (by match a with | ⟨0, _⟩ => rfl | ⟨1, _⟩ => rfl)
  rw [val_main_v57_apply, val_main_v56_apply, e1, mean_entry]
  rfl

/-- The entry minus the row mean (the second, identical subtraction, which feeds the normalised value). -/
theorem centred_entry' (r : Fin 16384) (e : Fin 2048) :
    val_main_v64 (F := Ideal) x0 x1 x2 x3 x4 x5 x6 x7 (ix2 r e)
      = Cert.Fusion.centred (row x0 x1 x2 x3 x4 x5 x6 x7 r) e := by
  have e1 : idx_main_v63 (ix2 r e) = ix2 r (0 : Fin 1) :=
    funext fun a => Fin.ext (by match a with | ⟨0, _⟩ => rfl | ⟨1, _⟩ => rfl)
  rw [val_main_v64_apply, val_main_v63_apply, e1, mean_entry]
  rfl

/-- The row variance: the sum of the squared deviations divided by the literal 2048. -/
theorem variance_entry (r : Fin 16384) :
    val_main_v62 (F := Ideal) x0 x1 x2 x3 x4 x5 x6 x7 (ix2 r (0 : Fin 1))
      = Cert.Fusion.variance (row x0 x1 x2 x3 x4 x5 x6 x7 r) := by
  have e1 : ∀ k : Fin 2048, idx_main_v59 (idx_main_v60 (ix2 r (0 : Fin 1))) k = ix2 r k := fun k =>
    funext fun a => Fin.ext (by match a with | ⟨0, _⟩ => rfl | ⟨1, _⟩ => rfl)
  rw [val_main_v62_apply, val_main_v60_apply, val_main_v59_apply, val_main_v61_apply, val_main_cst_7_apply,
    val_main_cst_6_apply]
  simp only [e1, val_main_v58_apply, centred_entry, Ideal.mulf_def, Ideal.hostDivf_def, Ideal.ofBits_def,
    Ideal.ofBits_zero_f32, zero_add]
  rfl

/-- The normalised row at feature `e`: ((x − μ) · rsqrt (var + ε)) · γ + β. -/
theorem normalised_entry (r : Fin 16384) (e : Fin 2048) :
    val_main_v75 (F := Ideal) x0 x1 x2 x3 x4 x5 x6 x7 x8 x9 (ix2 r e)
      = Cert.Fusion.layerNorm (row x0 x1 x2 x3 x4 x5 x6 x7 r) (fun e => x8 (ix1 e)) (fun e => x9 (ix1 e)) e := by
  have e1 : idx_main_v68 (ix2 r e) = ix2 r (0 : Fin 1) :=
    funext fun a => Fin.ext (by match a with | ⟨0, _⟩ => rfl | ⟨1, _⟩ => rfl)
  have e2 : idx_main_v70 (idx_main_v71 (ix2 r e)) = ix1 e :=
    funext fun a => Fin.ext (by match a with | ⟨0, _⟩ => rfl)
  have e3 : idx_main_v73 (idx_main_v74 (ix2 r e)) = ix1 e :=
    funext fun a => Fin.ext (by match a with | ⟨0, _⟩ => rfl)
  rw [val_main_v75_apply, val_main_v72_apply, val_main_v69_apply, val_main_v68_apply, e1, val_main_v67_apply,
    val_main_v66_apply, val_main_v65_apply, val_main_cst_8_apply, val_main_v71_apply, val_main_v70_apply, e2,
    val_main_v74_apply, val_main_v73_apply, e3, centred_entry', variance_entry]
  simp only [Ideal.addf_def, Ideal.mulf_def, Ideal.hostUnary_rsqrt_def, Ideal.ofBits_def]
  rfl

open Idealize.ShloMosaic.ValueIdx in
/-- The reference's result at row `r`, column `c` is the common function, given that the attention output is the
    value projection: the image row in columns 0 … 2047, the normalised row in columns 2048 … 4095. -/
theorem reference_eq_fused
    (hv : val_main_v45 (F := Ideal) x0 x1 x2 x3 x4 x5 = val_main_v25 (F := Ideal) x1 x2 x3 x4 x5)
    (r : Fin 16384) (c : Fin 4096) :
    val_main_v76 (F := Ideal) x0 x1 x2 x3 x4 x5 x6 x7 x8 x9 (ix2 r c)
      = Cert.Fusion.fused (fun r c => x0 (ix2 r c)) (fun r i => x1 (ix2 r i)) (fun j i => x2 (ix2 j i)) (fun j => x3 (ix1 j))
          (fun a j => x4 (ix2 a j)) (fun a => x5 (ix1 a)) (fun e k => x6 (ix2 e k)) (fun e => x7 (ix1 e))
          (fun e => x8 (ix1 e)) (fun e => x9 (ix1 e)) r c := by
  unfold Cert.Fusion.fused val_main_v76
  by_cases h : c.val < 2048
  · rw [dif_pos h]
    exact concatenate_pair_apply_left (t := S16384x4096) (s₁ := S16384x2048) (s₂ := S16384x2048) (1 : Fin 2) x0 _ _
      (ix2 r c) rfl (ix2 r (⟨c.val, h⟩ : Fin 2048)) (fun b => by match b with | ⟨0, _⟩ => rfl | ⟨1, _⟩ => rfl)
  · rw [dif_neg h]
    have hc : c.val - 2048 < 2048 := by have := c.isLt; omega
    rw [concatenate_pair_apply_right (t := S16384x4096) (s₁ := S16384x2048) (s₂ := S16384x2048) (1 : Fin 2) x0 _ _
      (ix2 r c) rfl rfl (ix2 r (⟨c.val - 2048, hc⟩ : Fin 2048))
      (fun b hb => by match b with | ⟨0, _⟩ => rfl | ⟨1, _⟩ => exact absurd rfl hb)
      (by show c.val - 2048 + 2048 = c.val; omega)]
    rw [normalised_entry]
    exact congrArg (fun x => Cert.Fusion.layerNorm x _ _ _)
      (funext fun e => resid_entry x0 x1 x2 x3 x4 x5 x6 x7 hv r e)

end Cert.RefFused

end
-- ==== Proof.lean ====
/-
  The proof of `Cert.Claim`: the three frames, the (empty) idealization ledger, and the equality of the two idealized
  programs' results over the extended reals.

  The kernel fuses a cross-attention block whose only key and value is one metadata token per batch row.  With one key
  the softmax weight is exp (s − s) / exp (s − s) = 1 for every REAL score s, so the attention output is the value
  projection and the kernel never computes queries, keys or scores; the reference does, and multiplies by that 1.  The
  two programs therefore agree exactly when the scores are real numbers, which the precondition (every input finite)
  gives: sums and products of reals are real.  Everything after the attention — the output projection, the residual,
  the layer normalisation with its two means, the concatenation with the image features — is the same sequence of
  operations on both sides, a product into a zero accumulator being the host's product and a lane sum the host's sum.

  The modules: Spec / SpecArray state the common function; KernelRow, KernelBlock, KernelArgs, KernelArray read the
  kernel's run as that function (over the generated frame run and value leg); OneKey (the one-key softmax), RefFused
  (the reference's stages) and FiniteArgs (the precondition read as "every entry is real") read the reference's run as
  the same function; here they are put side by side.
-/
import proofs.«121445_j49297634623646_1_alg».proof.Defs
import proofs.«121445_j49297634623646_1_alg».proof.Proof.Gen.Kernel
import proofs.«121445_j49297634623646_1_alg».proof.Proof.Gen.Kernel.Skeleton
import proofs.«121445_j49297634623646_1_alg».proof.Proof.Gen.Kernel.Launch
import proofs.«121445_j49297634623646_1_alg».proof.Proof.Gen.Kernel.Points
import proofs.«121445_j49297634623646_1_alg».proof.Proof.Gen.Kernel.Frame
import proofs.«121445_j49297634623646_1_alg».proof.Proof.Gen.KernelIdeal
import proofs.«121445_j49297634623646_1_alg».proof.Proof.Gen.KernelIdeal.Skeleton
import proofs.«121445_j49297634623646_1_alg».proof.Proof.Gen.KernelIdeal.Launch
import proofs.«121445_j49297634623646_1_alg».proof.Proof.Gen.KernelIdeal.Points
import proofs.«121445_j49297634623646_1_alg».proof.Proof.Gen.KernelIdeal.Frame
import proofs.«121445_j49297634623646_1_alg».proof.Proof.Gen.ReferenceIdeal
import proofs.«121445_j49297634623646_1_alg».proof.Proof.Gen.Pre_finite_inputs
import proofs.«121445_j49297634623646_1_alg».proof.Proof.Gen.KernelIdeal.Value
import proofs.«121445_j49297634623646_1_alg».proof.Proof.RefRunP
import proofs.«121445_j49297634623646_1_alg».proof.Proof.RefRunThm
import proofs.«121445_j49297634623646_1_alg».proof.Proof.RefReadP
import proofs.«121445_j49297634623646_1_alg».proof.Proof.SpecArray
import proofs.«121445_j49297634623646_1_alg».proof.Proof.KernelArray
import proofs.«121445_j49297634623646_1_alg».proof.Proof.FiniteArgs
import proofs.«121445_j49297634623646_1_alg».proof.Proof.OneKey
import proofs.«121445_j49297634623646_1_alg».proof.Proof.RefFused
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel runs and leaves its arguments unchanged: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both idealized programs end with the specification's result of the (agreeing, finite) arguments. -/
theorem algebraic : Cert.algebraic_KernelIdeal_ReferenceIdeal := by
  intro m ρ m' ρ' hpre hagree
  refine ⟨fun c => Cert.FusionKernel.result m c, Cert.FusionKernel.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9⟩ := hagree c
  obtain ⟨r0, r1, r2, r3, r4, r5, -⟩ := Cert.FiniteArgs.allReal_of_finite_inputs _ _ _ _ _ _ _ _ _ _ (hpre c)
  rw [Cert.ReferenceIdeal.Read.val_main_v76_eq, a0, a1, a2, a3, a4, a5, a6, a7, a8, a9]
  funext i
  obtain ⟨r, s, rfl⟩ : ∃ (r : Fin 16384) (s : Fin 4096), i = ix2 r s := ⟨i 0, i 1, eq_ix2 i⟩
  exact Cert.RefFused.reference_eq_fused _ _ _ _ _ _ _ _ _ _
    (Cert.OneKey.attended_eq_value _ _ _ _ _ _ r0 r1 r2 r3 r4 r5) r s

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
